-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 85
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x64, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x64, .f32⟩
  | .hbm, ⟨75, _⟩ => ⟨S850000x1, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S50000x64, .f32⟩
  | .hbm, ⟨84, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .i1⟩
  | .hbm, ⟨69, _⟩ => ⟨S_, .f32⟩
  | .hbm, ⟨70, _⟩ => ⟨S50000x128, .f32⟩
  | .hbm, ⟨71, _⟩ => ⟨S50000x128, .i1⟩
  | .hbm, ⟨72, _⟩ => ⟨S_, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S50000x64, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000x64, .f32⟩
  | .hbm, ⟨91, _⟩ => ⟨S850000x1, .f32⟩
  | .hbm, ⟨92, _⟩ => ⟨S850000x64, .f32⟩
  | .hbm, ⟨93, _⟩ => ⟨S850000x64, .f32⟩
  | .hbm, ⟨94, _⟩ => ⟨S_, .f32⟩
  | .hbm, ⟨95, _⟩ => ⟨S50000x64, .f32⟩
  | .hbm, ⟨96, _⟩ => ⟨S850000x1, .i32⟩
  | .hbm, ⟨97, _⟩ => ⟨S50000x64, .f32⟩
  | .hbm, ⟨98, _⟩ => ⟨S1x64, .f32⟩
  | .hbm, ⟨99, _⟩ => ⟨S50000x64, .f32⟩
  | .hbm, ⟨100, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_cst_0 : Ref sig .tc := ⟨.hbm, 69, rfl⟩
abbrev main_call1_v2 : Ref sig .tc := ⟨.hbm, 70, rfl⟩
abbrev main_call1_v3 : Ref sig .tc := ⟨.hbm, 71, rfl⟩
abbrev main_call1_cst_1 : Ref sig .tc := ⟨.hbm, 72, rfl⟩
abbrev main_call1_call0_v0 : Ref sig .tc := ⟨.hbm, 73, rfl⟩
abbrev main_call1_call0_v1 : Ref sig .tc := ⟨.hbm, 74, rfl⟩
abbrev main_call1_v4 : Ref sig .tc := ⟨.hbm, 75, rfl⟩
abbrev main_call1_v5 : Ref sig .tc := ⟨.hbm, 76, rfl⟩
abbrev main_call1_cst_2 : Ref sig .tc := ⟨.hbm, 77, rfl⟩
abbrev main_call1_v6 : Ref sig .tc := ⟨.hbm, 78, rfl⟩
abbrev main_call1_v7 : Ref sig .tc := ⟨.hbm, 79, rfl⟩
abbrev main_v47 : Ref sig .tc := ⟨.hbm, 80, rfl⟩
abbrev main_v48 : Ref sig .tc := ⟨.hbm, 81, rfl⟩
abbrev main_c_9 : Ref sig .tc := ⟨.hbm, 82, rfl⟩
abbrev main_v49 : Ref sig .tc := ⟨.hbm, 83, rfl⟩
abbrev main_v50 : Ref sig .tc := ⟨.hbm, 84, rfl⟩
abbrev main_c_10 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_11 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelIdealResult.lean ====
/-
  The run of the three-region program with its RESULT named: every weakly fair execution of @main terminates,
  the result array ends at the last boundary's contents (the fold of the host stretches and of the three
  regions' write-backs over the launch memory, read at the result's buffer), and the six arguments end as launched.
  The frame statement alone forgets the result; the value claim needs it at the fold.
-/
import proofs.«138321_j16853451670012_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the last
    boundary's contents at it, and each argument array what the launch gave it. -/
theorem run : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Result

end
-- ==== Proof.Spec.lean ====
/-
  The two-layer graph convolution both programs compute, as one function of the six arguments, stage by stage.
  Edges: the edge list's two rows, each followed by one self loop per node, give every edge a source and a target.
  A node's degree is the number of edges that target it; its weight is the reciprocal square root of the degree where
  the degree is positive and zero elsewhere; an edge's weight is the product of its endpoints' weights. A layer
  multiplies the node features by a matrix, sums over each node's incoming edges the source's row scaled by the edge's
  weight, and adds a bias; between the two layers every entry v becomes v where v is positive and 1 · (e^v − 1) elsewhere.
  Out-of-range or negative node numbers are handled by the gather and scatter operations themselves (a negative number is
  first shifted up by the node count); both programs apply the same operations, so the specification just names them.
-/
import proofs.«138321_j16853451670012_1_alg».proof.ReferenceIdeal
import Idealize.ShloMosaic.PureOps.Ideal

noncomputable section

namespace Cert.Gcn

open Cert.ReferenceIdeal Cert.ReferenceIdeal.Facts₀ Idealize.ShloMosaic

variable {F : FTy → Type} [FloatOps F] [Cert.ReferenceIdeal.Facts]

/-- A float array of a shape, as a buffer's contents. -/
abbrev FA (F : FTy → Type) (s : Shape) : Type := (⟨s, .f32⟩ : BufTy).Contents (Elt F)
/-- A 32-bit integer array of a shape, as a buffer's contents. -/
abbrev IA (F : FTy → Type) (s : Shape) : Type := (⟨s, .i32⟩ : BufTy).Contents (Elt F)

/-- The sources: row 0 of the edge list, then every node once. -/
def rowOf (e : IA F S2x800000) : IA F S850000 :=
  concatenate S850000 0 [⟨S800000, shapeCast S800000 (extractStridedSlice S1x800000 ![0, 0] e slices_S2x800000_S1x800000_0_0) shapeCasts_S1x800000_S800000⟩,
    ⟨S50000, iotaInDim S50000 32 0⟩] concatenates_S800000_S50000_S850000_d0

/-- The targets: row 1 of the edge list, then every node once. -/
def colOf (e : IA F S2x800000) : IA F S850000 :=
  concatenate S850000 0 [⟨S800000, shapeCast S800000 (extractStridedSlice S1x800000 ![1, 0] e slices_S2x800000_S1x800000_1_0) shapeCasts_S1x800000_S800000⟩,
    ⟨S50000, iotaInDim S50000 32 0⟩] concatenates_S800000_S50000_S850000_d0

/-- A node's degree: one added per edge that targets it. -/
def degOf (col : IA F S850000) : FA F S50000 :=
  Host.scatterAdd scatter_S50000_S850000x1_S850000_n_0_0_1 (broadcastInDim S50000 ![] bcast_S_S50000 (constant S_ .f32 0x00000000#32))
    (broadcastInDim S850000x1 ![0] bcast_S850000_S850000x1_0 col) (broadcastInDim S850000 ![] bcast_S_S850000 (constant S_ .f32 0x3F800000#32))

/-- A node's weight: the reciprocal square root of its degree where that is positive, zero elsewhere. -/
def dinvOf (col : IA F S850000) : FA F S50000 :=
  select (cmpf .ogt (degOf (F := F) col) (broadcastInDim S50000 ![] bcast_S_S50000 (constant S_ .f32 0x00000000#32))) (Host.rsqrt (degOf (F := F) col))
    (broadcastInDim S50000 ![] bcast_S_S50000 (id (constant S_ .f32 0x00000000#32)))

/-- Node numbers as a column of gather indices, a negative one first shifted up by the node count. -/
def wrapIdx (r : IA F S850000) : IA F S850000x1 :=
  broadcastInDim S850000x1 ![0] bcast_S850000_S850000x1_0
    (select (cmpi .slt r (broadcastInDim S850000 ![] bcast_S_S850000 (constantI S_ 32 0#32)))
      (addi r (broadcastInDim S850000 ![] bcast_S_S850000 (constantI S_ 32 50000#32))) r)

/-- An edge's weight: the product of its source's and its target's weights. -/
def normOf (dinv : FA F S50000) (row col : IA F S850000) : FA F S850000 :=
  mulf (Host.gather gather_S50000_S850000x1_S850000_n_0_n_n_0_1_1 dinv (wrapIdx (F := F) row))
    (Host.gather gather_S50000_S850000x1_S850000_n_0_n_n_0_1_1 dinv (wrapIdx (F := F) col))

/-- The weighted neighbourhood sum of 128-wide rows: per edge the source's row times the edge's weight, added at the target. -/
def agg128 (h : FA F S50000x128) (row col : IA F S850000) (norm : FA F S850000) : FA F S50000x128 :=
  Host.scatterAdd scatter_S50000x128_S850000x1_S850000x128_1_0_0_1 (broadcastInDim S50000x128 ![] bcast_S_S50000x128 (constant S_ .f32 0x00000000#32))
    (broadcastInDim S850000x1 ![0] bcast_S850000_S850000x1_0 col)
    (mulf (Host.gather gather_S50000x128_S850000x1_S850000x128_1_0_n_n_0_1_1128 h (wrapIdx (F := F) row))
      (broadcastInDim S850000x128 ![0, 1] bcast_S850000x1_S850000x128_0_1 (broadcastInDim S850000x1 ![0] bcast_S850000_S850000x1_0 norm)))

/-- The same of 64-wide rows. -/
def agg64 (h : FA F S50000x64) (row col : IA F S850000) (norm : FA F S850000) : FA F S50000x64 :=
  Host.scatterAdd scatter_S50000x64_S850000x1_S850000x64_1_0_0_1 (broadcastInDim S50000x64 ![] bcast_S_S50000x64 (constant S_ .f32 0x00000000#32))
    (broadcastInDim S850000x1 ![0] bcast_S850000_S850000x1_0 col)
    (mulf (Host.gather gather_S50000x64_S850000x1_S850000x64_1_0_n_n_0_1_164 h (wrapIdx (F := F) row))
      (broadcastInDim S850000x64 ![0, 1] bcast_S850000x1_S850000x64_0_1 (broadcastInDim S850000x1 ![0] bcast_S850000_S850000x1_0 norm)))

/-- A bias row added to every row (128 wide), the row given as a [1, 128] array. -/
def addRow128 (h : FA F S50000x128) (b : FA F S1x128) : FA F S50000x128 :=
  addf h (broadcastInDim S50000x128 ![0, 1] bcast_S1x128_S50000x128_0_1 b)

/-- A bias vector added to every row (64 wide). -/
def addBias64 (h : FA F S50000x64) (b : FA F S64) : FA F S50000x64 :=
  addf h (broadcastInDim S50000x64 ![0, 1] bcast_S1x64_S50000x64_0_1 (broadcastInDim S1x64 ![1] bcast_S64_S1x64_1 b))

/-- The exponential linear unit, entry by entry: v where v > 0, and 1 · (e^w − 1) elsewhere, w being 0 where v > 0 and v elsewhere. -/
def elu (v : FA F S50000x128) : FA F S50000x128 :=
  select (cmpf .ogt v (broadcastInDim S50000x128 ![] bcast_S_S50000x128 (constant S_ .f32 0x00000000#32))) v
    (mulf (broadcastInDim S50000x128 ![] bcast_S_S50000x128 (constant S_ .f32 0x3F800000#32))
      (Host.expm1 (select (cmpf .ogt v (broadcastInDim S50000x128 ![] bcast_S_S50000x128 (constant S_ .f32 0x00000000#32)))
        (broadcastInDim S50000x128 ![] bcast_S_S50000x128 (id (constant S_ .f32 0x00000000#32))) v)))

/-- The first layer's product: features times the first matrix. -/
def mm1 (x : FA F S50000x128) (w : FA F S128x128) : FA F S50000x128 :=
  Host.dotGeneral dot_S50000x128_S128x128_S50000x128_1_0_0_1_n_n none x w

/-- The second layer's product. -/
def mm2 (x : FA F S50000x128) (w : FA F S128x64) : FA F S50000x64 :=
  Host.dotGeneral dot_S50000x128_S128x64_S50000x64_1_0_0_1_n_n none x w

/-- The hidden features: the first layer's neighbourhood sum plus its bias row, through the unit. -/
def hidden (h1 : FA F S50000x128) (row col : IA F S850000) (norm : FA F S850000) (b1 : FA F S1x128) : FA F S50000x128 :=
  elu (F := F) (addRow128 (F := F) (agg128 (F := F) h1 row col norm) b1)

/-- The result: the second layer's neighbourhood sum plus its bias. -/
def result (h2 : FA F S50000x64) (row col : IA F S850000) (norm : FA F S850000) (b2 : FA F S64) : FA F S50000x64 :=
  addBias64 (F := F) (agg64 (F := F) h2 row col norm) b2

/-- The whole network as a function of the arguments. -/
def net (x : FA F S50000x128) (e : IA F S2x800000) (w1 : FA F S128x128) (b1 : FA F S128) (w2 : FA F S128x64) (b2 : FA F S64) : FA F S50000x64 :=
  result (F := F) (mm2 (F := F) (hidden (F := F) (mm1 (F := F) x w1) (rowOf (F := F) e) (colOf (F := F) e)
      (normOf (F := F) (dinvOf (F := F) (colOf (F := F) e)) (rowOf (F := F) e) (colOf (F := F) e))
      (broadcastInDim S1x128 ![1] bcast_S128_S1x128_1 b1)) w2)
    (rowOf (F := F) e) (colOf (F := F) e) (normOf (F := F) (dinvOf (F := F) (colOf (F := F) e)) (rowOf (F := F) e) (colOf (F := F) e)) b2

end Cert.Gcn

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.KRegion0.lean ====
/-
  The first product, computed ten row blocks at a time: region 0 leaves in its output array the product of the array it
  finds at its first window (50000 × 128) with the matrix at its second (128 × 128). Point t of the grid loads rows
  5000·t … 5000·t + 4999 and the whole matrix, multiplies them on the matrix unit into a zero accumulator (after rounding
  both to a narrower format, which on the extended reals changes nothing) and writes the 5000 × 128 result back to the
  same rows. A row block of a matrix product is the product of the row block, so the ten blocks are the whole product.
-/
import proofs.«138321_j16853451670012_1_alg».proof.Proof.Gen.KernelIdeal.Frame
import proofs.«138321_j16853451670012_1_alg».proof.Proof.Spec
import proofs.«138321_j16853451670012_1_alg».proof.Proof.Gen.ReferenceIdeal
import proofs.«138321_j16853451670012_1_alg».proof.Proof.LibDotSum
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The three windows' block indices at point t: the rows' window and the output's move with t, the matrix's stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's value at (p, q): the sum over k of the row block at (p, k) times the matrix at (k, q). -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  refine (DotSum.matmul_zero_eq_sum dot_S5000x128_S128x128_S5000x128_1_0_0_1_n_n 128 rfl rfl _ _ (ix2 p q)
    (fun k => ix2 p k) (fun k => ix2 k q) (fun k => ?_) (fun k => ?_)).trans rfl
  · funext a; apply Fin.ext
    match a with
    | ⟨0, _⟩ => rfl
    | ⟨1, _⟩ => exact (DotDims.lhsIdx_val_of_single _ rfl _ _).trans (contrEquiv1_symm_val _ 128 rfl rfl k)
  · funext a; apply Fin.ext
    match a with
    | ⟨0, _⟩ => exact (DotDims.rhsIdx_val_of_single _ rfl _ _).trans (contrEquiv1_symm_val _ 128 rfl rfl k)
    | ⟨1, _⟩ => rfl

/-- The whole product at (r, q): the sum over k of the array at (r, k) times the matrix at (k, q). -/
theorem mm1_apply (X : Gcn.FA Ideal Cert.ReferenceIdeal.S50000x128) (W : Gcn.FA Ideal Cert.ReferenceIdeal.S128x128) (r : Fin 50000) (q : Fin 128) :
    Gcn.mm1 (F := Ideal) X W (ix2 r q) = ∑ k : Fin 128, X (ix2 r k) * W (ix2 k q) := by
  unfold Gcn.mm1
  refine DotSum.dotGeneral_eq_sum Cert.ReferenceIdeal.dot_S50000x128_S128x128_S50000x128_1_0_0_1_n_n 128 rfl rfl _ _ (ix2 r q)
    (fun k => ix2 r k) (fun k => ix2 k q) (fun k => ?_) (fun k => ?_)
  · funext a; apply Fin.ext
    match a with
    | ⟨0, _⟩ => rfl
    | ⟨1, _⟩ => exact (DotDims.lhsIdx_val_of_single _ rfl _ _).trans (contrEquiv1_symm_val _ 128 rfl rfl k)
  · funext a; apply Fin.ext
    match a with
    | ⟨0, _⟩ => exact (DotDims.rhsIdx_val_of_single _ rfl _ _).trans (contrEquiv1_symm_val _ 128 rfl rfl k)
    | ⟨1, _⟩ => rfl

/-- The rows' block at point t is rows 5000·t … of the array the region finds at its first window. -/
theorem rows_apply (c : Dev nD) (t : Fin cfg0.N) (p : Fin 5000) (k : Fin 128) (r : Fin 50000) (hr : r.val = t.val * 5000 + p.val) :
    (iblk0 V c 0 t : Vec Ideal S5000x128 .f32) (ix2 p k) = (V c main_arg0 : S50000x128.Idx → EReal) (ix2 r k) := by
  obtain ⟨e0, e1, -⟩ := idx_facts t
  unfold iblk0
  rw [View.read_apply]
  show V c main_arg0 _ = V c main_arg0 _
  refine congrArg _ ?_
  funext a; apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The matrix's block at every point is the whole matrix. -/
theorem mat_apply (c : Dev nD) (t : Fin cfg0.N) (k q : Fin 128) :
    (iblk0 V c 1 t : Vec Ideal S128x128 .f32) (ix2 k q) = (V c main_arg2 : S128x128.Idx → EReal) (ix2 k q) := by
  obtain ⟨-, -, e2, e3, -⟩ := idx_facts t
  unfold iblk0
  rw [View.read_apply]
  show V c main_arg2 _ = V c main_arg2 _
  refine congrArg _ ?_
  funext a; apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point t writes back is block t of the whole product. -/
theorem flushed_eq (c : Dev nD) (t : Fin cfg0.N) :
    (dat0 V c).flushed 2 t = ((cfg0.win 2).blk t).view.read (Elt Ideal) (Gcn.mm1 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext y
  obtain ⟨p, q, rfl⟩ : ∃ (p : Fin 5000) (q : Fin 128), y = ix2 p q := ⟨y 0, y 1, eq_ix2 y⟩
  obtain ⟨-, -, -, -, e4, e5⟩ := idx_facts t
  have hN : t.val < 10 := Nat.lt_of_lt_of_eq t.isLt N_0
  have hemb : ((cfg0.win 2).blk t).view.emb (ix2 p q) = (ix2 (⟨t.val * 5000 + p.val, by omega⟩ : Fin 50000) q : S50000x128.Idx) := by
    funext a; apply Fin.ext
    match a with
    | ⟨0, _⟩ => show win0_2.index t (0 : Fin 2) * 5000 + 1 * p.val = t.val * 5000 + p.val; rw [e4]; omega
    | ⟨1, _⟩ => show win0_2.index t (1 : Fin 2) * 128 + 1 * q.val = q.val; rw [e5]; omega
  show k0_pay1 (iblk0 V c 0 t) (iblk0 V c 1 t) (ix2 p q) = Gcn.mm1 (F := Ideal) (V c main_arg0) (V c main_arg2) (((cfg0.win 2).blk t).view.emb (ix2 p q))
  rw [hemb]
  refine (pay_apply (iblk0 V c 0 t) (iblk0 V c 1 t) p q).trans ((mm1_apply _ _ _ q).trans ?_).symm
  refine Finset.sum_congr rfl fun k _ => ?_
  rw [rows_apply V c t p k ⟨t.val * 5000 + p.val, by omega⟩ rfl, mat_apply V c t k q]

/-- An index of the output array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r lies in the block of point r / 5000: the ten blocks cover the array. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- The output array after the region: the product of the two arrays the region found. -/
theorem final (c : Dev nD) : (dat0 V c).arrAt 2 cfg0.N = Gcn.mm1 (F := Ideal) (V c main_arg0) (V c main_arg2) :=
  (dat0 V c).arrAt_eq_of_cover 2 _ (fun t _ => flushed_eq V c t) (cover)

end Cert.KernelIdeal.Region0

end
-- ==== Proof.KRegion1.lean ====
/-
  The bias and the exponential linear unit, ten row blocks at a time: region 1 leaves in its output array, at every entry,
  the unit of (the array it finds at its first window plus the row it finds at its second). Point t loads rows
  5000·t … and the one bias row, adds the row to every loaded row, and stores v where v > 0 and e^v − 1 elsewhere.
  The specification's unit is spelt v where v > 0 and 1 · (e^w − 1) elsewhere, with w = v off the positive part: the same
  extended real, since 1 · y = y for every y.
-/
import proofs.«138321_j16853451670012_1_alg».proof.Proof.Gen.KernelIdeal.Frame
import proofs.«138321_j16853451670012_1_alg».proof.Proof.Spec
import proofs.«138321_j16853451670012_1_alg».proof.Proof.Gen.ReferenceIdeal
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The three windows' block indices at point t: the rows' window and the output's move with t, the bias row's stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The unit as the body spells it: v where v > 0, e^v − 1 elsewhere. -/
def unitK (v : EReal) : EReal :=
  Scalar.select (FloatOps.cmpf (F := Ideal) (φ := .f32) .ogt v (Ideal.ofBits .f32 0x00000000#32)) v (Ideal.exp v - Ideal.ofBits .f32 0x3F800000#32)

/-- The unit as the specification spells it: v where v > 0, and 1 · (e^w − 1) elsewhere, w = 0 where v > 0 and v elsewhere. -/
def unitS (v : EReal) : EReal :=
  Scalar.select (FloatOps.cmpf (F := Ideal) (φ := .f32) .ogt v (Ideal.ofBits .f32 0x00000000#32)) v
    (Ideal.ofBits .f32 0x3F800000#32 * (Ideal.exp (Scalar.select (FloatOps.cmpf (F := Ideal) (φ := .f32) .ogt v (Ideal.ofBits .f32 0x00000000#32)) (Ideal.ofBits .f32 0x00000000#32) v) - 1))

/-- The two spellings are one function: on the positive part both give v; off it the inner selection gives v back,
    the literal is 1, and 1 · y = y. -/
theorem unit_eq (v : EReal) : unitK v = unitS v := by
  unfold unitK unitS
  have h1 : Ideal.ofBits .f32 0x3F800000#32 = 1 := IdealRules.sign_bit.ideal_onePat .f32
  rcases BitVec.eq_zero_or_eq_one (FloatOps.cmpf (F := Ideal) (φ := .f32) .ogt v (Ideal.ofBits .f32 0x00000000#32)) with h | h
  · rw [h, select_zero, select_zero, select_zero, h1, one_mul]
  · rw [h, select_one, select_one]

/-- The body's value at (p, q): the unit of the loaded row's entry plus the bias row's entry. -/
theorem pay_apply (x0 : Vec Ideal S5000x128 .f32) (x1 : Vec Ideal S1x128 .f32) (p : Fin 5000) (q : Fin 128) :
    k1_pay1 x0 x1 (ix2 p q) = unitK (x0 (ix2 p q) + x1 (ix2 (0 : Fin 1) q)) := by
  have hb : broadcastTo S5000x128 x1 broadcasts_S1x128_S5000x128 (ix2 p q) = x1 (ix2 (0 : Fin 1) q) :=
    broadcastTo_apply x1 broadcasts_S1x128_S5000x128 (ix2 p q) (ix2 (0 : Fin 1) q) (by
      intro a
      match a with
      | ⟨0, _⟩ => rfl
      | ⟨1, _⟩ => rfl)
  unfold k1_pay1
  simp only [shapeCast_self]
  show unitK (x0 (ix2 p q) + broadcastTo S5000x128 x1 broadcasts_S1x128_S5000x128 (ix2 p q)) = _
  rw [hb]

/-- The specification's value at (r, q): the unit of the array's entry plus the row's entry. -/
theorem spec_apply (h : Gcn.FA Ideal Cert.ReferenceIdeal.S50000x128) (b : Gcn.FA Ideal Cert.ReferenceIdeal.S1x128) (r : Fin 50000) (q : Fin 128) :
    Gcn.elu (F := Ideal) (Gcn.addRow128 (F := Ideal) h b) (ix2 r q) = unitS (h (ix2 r q) + b (ix2 (0 : Fin 1) q)) := by
  have hb := broadcastInDim_oneRow_apply (m := 50000) (n := 128) Cert.ReferenceIdeal.Facts₀.bcast_S1x128_S50000x128_0_1 b r q
  unfold Gcn.elu Gcn.addRow128
  show unitS (h (ix2 r q) + broadcastInDim Cert.ReferenceIdeal.S50000x128 ![0, 1] Cert.ReferenceIdeal.Facts₀.bcast_S1x128_S50000x128_0_1 b (ix2 r q)) = _
  rw [hb]

/-- The rows' block at point t is rows 5000·t … of the array the region finds at its first window. -/
theorem rows_apply (c : Dev nD) (t : Fin cfg1.N) (p : Fin 5000) (k : Fin 128) (r : Fin 50000) (hr : r.val = t.val * 5000 + p.val) :
    (iblk1 V c 0 t : Vec Ideal S5000x128 .f32) (ix2 p k) = (V c main_v43 : S50000x128.Idx → EReal) (ix2 r k) := by
  obtain ⟨e0, e1, -⟩ := idx_facts t
  unfold iblk1
  rw [View.read_apply]
  show V c main_v43 _ = V c main_v43 _
  refine congrArg _ ?_
  funext a; apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The bias row's block at every point is the whole row. -/
theorem bias_apply (c : Dev nD) (t : Fin cfg1.N) (q : Fin 128) :
    (iblk1 V c 1 t : Vec Ideal S1x128 .f32) (ix2 (0 : Fin 1) q) = (V c main_v44 : S1x128.Idx → EReal) (ix2 (0 : Fin 1) q) := by
  obtain ⟨-, -, e2, e3, -⟩ := idx_facts t
  unfold iblk1
  rw [View.read_apply]
  show V c main_v44 _ = V c main_v44 _
  refine congrArg _ ?_
  funext a; apply Fin.ext
  match a with
  | ⟨0, _⟩ => show win1_1.index t (0 : Fin 2) * 1 + 1 * 0 = 0; rw [e2]
  | ⟨1, _⟩ => show win1_1.index t (1 : Fin 2) * 128 + 1 * q.val = q.val; rw [e3]; omega

/-- What point t writes back is block t of the unit of the sum. -/
theorem flushed_eq (c : Dev nD) (t : Fin cfg1.N) :
    (dat1 V c).flushed 2 t = ((cfg1.win 2).blk t).view.read (Elt Ideal)
      (Gcn.elu (F := Ideal) (Gcn.addRow128 (F := Ideal) (V c main_v43) (V c main_v44))) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  funext y
  obtain ⟨p, q, rfl⟩ : ∃ (p : Fin 5000) (q : Fin 128), y = ix2 p q := ⟨y 0, y 1, eq_ix2 y⟩
  obtain ⟨-, -, -, -, e4, e5⟩ := idx_facts t
  have hN : t.val < 10 := Nat.lt_of_lt_of_eq t.isLt N_1
  have hemb : ((cfg1.win 2).blk t).view.emb (ix2 p q) = (ix2 (⟨t.val * 5000 + p.val, by omega⟩ : Fin 50000) q : S50000x128.Idx) := by
    funext a; apply Fin.ext
    match a with
    | ⟨0, _⟩ => show win1_2.index t (0 : Fin 2) * 5000 + 1 * p.val = t.val * 5000 + p.val; rw [e4]; omega
    | ⟨1, _⟩ => show win1_2.index t (1 : Fin 2) * 128 + 1 * q.val = q.val; rw [e5]; omega
  show k1_pay1 (iblk1 V c 0 t) (iblk1 V c 1 t) (ix2 p q)
    = Gcn.elu (F := Ideal) (Gcn.addRow128 (F := Ideal) (V c main_v43) (V c main_v44)) (((cfg1.win 2).blk t).view.emb (ix2 p q))
  rw [hemb]
  refine (pay_apply (iblk1 V c 0 t) (iblk1 V c 1 t) p q).trans ((spec_apply _ _ _ q).trans ?_).symm
  rw [rows_apply V c t p q ⟨t.val * 5000 + p.val, by omega⟩ rfl, bias_apply V c t q]
  exact (unit_eq _).symm

/-- An index of the output array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Row r lies in the block of point r / 5000: the ten blocks cover the array. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, e4, e5⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e5]; omega

/-- The output array after the region: the unit of the sum of the array and the row the region found. -/
theorem final (c : Dev nD) :
    (dat1 V c).arrAt 2 cfg1.N = Gcn.elu (F := Ideal) (Gcn.addRow128 (F := Ideal) (V c main_v43) (V c main_v44)) :=
  (dat1 V c).arrAt_eq_of_cover 2 _ (fun t _ => flushed_eq V c t) (cover)

end Cert.KernelIdeal.Region1

end
-- ==== Proof.KRegion2.lean ====
/-
  The second product, computed ten row blocks at a time: region 2 leaves in its output array the product of the array it
  finds at its first window (50000 × 128) with the matrix at its second (128 × 64). Point t of the grid loads rows
  5000·t … 5000·t + 4999 and the whole matrix, multiplies them on the matrix unit into a zero accumulator (after rounding
  both to a narrower format, which on the extended reals changes nothing) and writes the 5000 × 64 result back to the
  same rows. A row block of a matrix product is the product of the row block, so the ten blocks are the whole product.
-/
import proofs.«138321_j16853451670012_1_alg».proof.Proof.Gen.KernelIdeal.Frame
import proofs.«138321_j16853451670012_1_alg».proof.Proof.Spec
import proofs.«138321_j16853451670012_1_alg».proof.Proof.Gen.ReferenceIdeal
import proofs.«138321_j16853451670012_1_alg».proof.Proof.LibDotSum
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The three windows' block indices at point t: the rows' window and the output's move with t, the matrix's stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's value at (p, q): the sum over k of the row block at (p, k) times the matrix at (k, q). -/
theorem pay_apply (x0 : Vec Ideal S5000x128 .f32) (x1 : Vec Ideal S128x64 .f32) (p : Fin 5000) (q : Fin 64) :
    k2_pay1 x0 x1 (ix2 p q) = ∑ k : Fin 128, x0 (ix2 p k) * x1 (ix2 k q) := by
  unfold k2_pay1
  rw [shapeCast_self]
  refine (DotSum.matmul_zero_eq_sum dot_S5000x128_S128x64_S5000x64_1_0_0_1_n_n 128 rfl rfl _ _ (ix2 p q)
    (fun k => ix2 p k) (fun k => ix2 k q) (fun k => ?_) (fun k => ?_)).trans rfl
  · funext a; apply Fin.ext
    match a with
    | ⟨0, _⟩ => rfl
    | ⟨1, _⟩ => exact (DotDims.lhsIdx_val_of_single _ rfl _ _).trans (contrEquiv1_symm_val _ 128 rfl rfl k)
  · funext a; apply Fin.ext
    match a with
    | ⟨0, _⟩ => exact (DotDims.rhsIdx_val_of_single _ rfl _ _).trans (contrEquiv1_symm_val _ 128 rfl rfl k)
    | ⟨1, _⟩ => rfl

/-- The whole product at (r, q): the sum over k of the array at (r, k) times the matrix at (k, q). -/
theorem mm2_apply (X : Gcn.FA Ideal Cert.ReferenceIdeal.S50000x128) (W : Gcn.FA Ideal Cert.ReferenceIdeal.S128x64) (r : Fin 50000) (q : Fin 64) :
    Gcn.mm2 (F := Ideal) X W (ix2 r q) = ∑ k : Fin 128, X (ix2 r k) * W (ix2 k q) := by
  unfold Gcn.mm2
  refine DotSum.dotGeneral_eq_sum Cert.ReferenceIdeal.dot_S50000x128_S128x64_S50000x64_1_0_0_1_n_n 128 rfl rfl _ _ (ix2 r q)
    (fun k => ix2 r k) (fun k => ix2 k q) (fun k => ?_) (fun k => ?_)
  · funext a; apply Fin.ext
    match a with
    | ⟨0, _⟩ => rfl
    | ⟨1, _⟩ => exact (DotDims.lhsIdx_val_of_single _ rfl _ _).trans (contrEquiv1_symm_val _ 128 rfl rfl k)
  · funext a; apply Fin.ext
    match a with
    | ⟨0, _⟩ => exact (DotDims.rhsIdx_val_of_single _ rfl _ _).trans (contrEquiv1_symm_val _ 128 rfl rfl k)
    | ⟨1, _⟩ => rfl

/-- The rows' block at point t is rows 5000·t … of the array the region finds at its first window. -/
theorem rows_apply (c : Dev nD) (t : Fin cfg2.N) (p : Fin 5000) (k : Fin 128) (r : Fin 50000) (hr : r.val = t.val * 5000 + p.val) :
    (iblk2 V c 0 t : Vec Ideal S5000x128 .f32) (ix2 p k) = (V c main_v45 : S50000x128.Idx → EReal) (ix2 r k) := by
  obtain ⟨e0, e1, -⟩ := idx_facts t
  unfold iblk2
  rw [View.read_apply]
  show V c main_v45 _ = V c main_v45 _
  refine congrArg _ ?_
  funext a; apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The matrix's block at every point is the whole matrix. -/
theorem mat_apply (c : Dev nD) (t : Fin cfg2.N) (k : Fin 128) (q : Fin 64) :
    (iblk2 V c 1 t : Vec Ideal S128x64 .f32) (ix2 k q) = (V c main_arg4 : S128x64.Idx → EReal) (ix2 k q) := by
  obtain ⟨-, -, e2, e3, -⟩ := idx_facts t
  unfold iblk2
  rw [View.read_apply]
  show V c main_arg4 _ = V c main_arg4 _
  refine congrArg _ ?_
  funext a; apply Fin.ext
  match a with
  | ⟨0, _⟩ => show win2_1.index t (0 : Fin 2) * 128 + 1 * k.val = k.val; rw [e2]; omega
  | ⟨1, _⟩ => show win2_1.index t (1 : Fin 2) * 64 + 1 * q.val = q.val; rw [e3]; omega

/-- What point t writes back is block t of the whole product. -/
theorem flushed_eq (c : Dev nD) (t : Fin cfg2.N) :
    (dat2 V c).flushed 2 t = ((cfg2.win 2).blk t).view.read (Elt Ideal) (Gcn.mm2 (F := Ideal) (V c main_v45) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  funext y
  obtain ⟨p, q, rfl⟩ : ∃ (p : Fin 5000) (q : Fin 64), y = ix2 p q := ⟨y 0, y 1, eq_ix2 y⟩
  obtain ⟨-, -, -, -, e4, e5⟩ := idx_facts t
  have hN : t.val < 10 := Nat.lt_of_lt_of_eq t.isLt N_2
  have hemb : ((cfg2.win 2).blk t).view.emb (ix2 p q) = (ix2 (⟨t.val * 5000 + p.val, by omega⟩ : Fin 50000) q : S50000x64.Idx) := by
    funext a; apply Fin.ext
    match a with
    | ⟨0, _⟩ => show win2_2.index t (0 : Fin 2) * 5000 + 1 * p.val = t.val * 5000 + p.val; rw [e4]; omega
    | ⟨1, _⟩ => show win2_2.index t (1 : Fin 2) * 64 + 1 * q.val = q.val; rw [e5]; omega
  show k2_pay1 (iblk2 V c 0 t) (iblk2 V c 1 t) (ix2 p q) = Gcn.mm2 (F := Ideal) (V c main_v45) (V c main_arg4) (((cfg2.win 2).blk t).view.emb (ix2 p q))
  rw [hemb]
  refine (pay_apply (iblk2 V c 0 t) (iblk2 V c 1 t) p q).trans ((mm2_apply _ _ _ q).trans ?_).symm
  refine Finset.sum_congr rfl fun k _ => ?_
  rw [rows_apply V c t p k ⟨t.val * 5000 + p.val, by omega⟩ rfl, mat_apply V c t k q]

/-- An index of the output array is in point t's block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v46).slice (win2_2.rect t)).set ↔ _
  rw [View.set_slice_whole, Rect.mem_set_unit]
  exact Iff.rfl

/-- Row r lies in the block of point r / 5000: the ten blocks cover the array. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  have ht : (i 0).val / 5000 < cfg2.N := by rw [hN]; omega
  obtain ⟨-, -, -, -, e4, e5⟩ := idx_facts ⟨(i 0).val / 5000, ht⟩
  refine ⟨⟨(i 0).val / 5000, ht⟩, flush2_2 _, ?_⟩
  rw [mem_blk]
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 64 ≤ (i 1).val ∧ (i 1).val < win2_2.index ⟨(i 0).val / 5000, ht⟩ (1 : Fin 2) * 64 + 64
    rw [e5]; omega

/-- The output array after the region: the product of the two arrays the region found. -/
theorem final (c : Dev nD) : (dat2 V c).arrAt 2 cfg2.N = Gcn.mm2 (F := Ideal) (V c main_v45) (V c main_arg4) :=
  (dat2 V c).arrAt_eq_of_cover 2 _ (fun t _ => flushed_eq V c t) (cover)

end Cert.KernelIdeal.Region2

end
-- ==== Proof.KStages.lean ====
/-
  What each stretch of host operations of the three-region program computes, as the specification's functions of the
  buffers the stretch reads (the operations of a stretch composed, read at one result buffer).
-/
import proofs.«138321_j16853451670012_1_alg».proof.Proof.Gen.KernelIdeal.Launch
import proofs.«138321_j16853451670012_1_alg».proof.Proof.Gen.ReferenceIdeal
import proofs.«138321_j16853451670012_1_alg».proof.Proof.Spec
import Idealize.ShloMosaic.Lib.StableHlo.Run

set_option maxRecDepth 16384
set_option maxHeartbeats 1000000

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]

/-- The sources after the edge stretch. -/
theorem k0_row (V : Valuation τ sig (Elt F)) :
    after hostOps0 V (Proc.devRef .tc main_v3) = Gcn.rowOf (F := F) (V (Proc.devRef .tc main_arg1)) := rfl

/-- The targets after the edge stretch. -/
theorem k0_col (V : Valuation τ sig (Elt F)) :
    after hostOps0 V (Proc.devRef .tc main_v6) = Gcn.colOf (F := F) (V (Proc.devRef .tc main_arg1)) := rfl

/-- Where the degree is positive. -/
theorem k0_mask (V : Valuation τ sig (Elt F)) :
    after hostOps0 V (Proc.devRef .tc main_v12)
      = cmpf .ogt (Gcn.degOf (F := F) (Gcn.colOf (F := F) (V (Proc.devRef .tc main_arg1)))) (broadcastInDim S50000 ![] Cert.ReferenceIdeal.Facts₀.bcast_S_S50000 (constant S_ .f32 0x00000000#32)) := rfl

/-- The degree's reciprocal square root. -/
theorem k0_rs (V : Valuation τ sig (Elt F)) :
    after hostOps0 V (Proc.devRef .tc main_v13) = Host.rsqrt (Gcn.degOf (F := F) (Gcn.colOf (F := F) (V (Proc.devRef .tc main_arg1)))) := rfl

/-- The zero the selection falls back to. -/
theorem k0_z (V : Valuation τ sig (Elt F)) :
    after hostOps0 V (Proc.devRef .tc main_cst_2) = (constant S_ .f32 0x00000000#32 : FVec F S_ .f32) := rfl

/-- The selection of the reciprocal root where the degree is positive. -/
theorem k1_dinv (V : Valuation τ sig (Elt F)) :
    after hostOps0_1 V (Proc.devRef .tc main_v14)
      = select (V (Proc.devRef .tc main_v12)) (V (Proc.devRef .tc main_v13)) (broadcastInDim S50000 ![] Cert.ReferenceIdeal.Facts₀.bcast_S_S50000 (id (V (Proc.devRef .tc main_cst_2)))) := rfl

/-- The edges' weights from the nodes' weights and the endpoints. -/
theorem k2_norm (V : Valuation τ sig (Elt F)) :
    after hostOps0_2 V (Proc.devRef .tc main_v29) = Gcn.normOf (F := F) (V (Proc.devRef .tc main_v14)) (V (Proc.devRef .tc main_v3)) (V (Proc.devRef .tc main_v6)) := rfl

/-- The first weighted neighbourhood sum. -/
theorem k3_agg (V : Valuation τ sig (Elt F)) :
    after hostOps1 V (Proc.devRef .tc main_v43) = Gcn.agg128 (F := F) (V (Proc.devRef .tc main_v30)) (V (Proc.devRef .tc main_v3)) (V (Proc.devRef .tc main_v6)) (V (Proc.devRef .tc main_v29)) := rfl

/-- The second weighted neighbourhood sum and its bias. -/
theorem k4_out (V : Valuation τ sig (Elt F)) :
    after hostOps3 V (Proc.devRef .tc main_v62) = Gcn.result (F := F) (V (Proc.devRef .tc main_v46)) (V (Proc.devRef .tc main_v3)) (V (Proc.devRef .tc main_v6)) (V (Proc.devRef .tc main_v29)) (V (Proc.devRef .tc main_arg5)) := rfl

/-- The bias vector cast to one row. -/
theorem k3_row (V : Valuation τ sig (Elt F)) :
    after hostOps1 V (Proc.devRef .tc main_v44) = shapeCast S1x128 (V (Proc.devRef .tc main_arg3)) Cert.KernelIdeal.Facts₀.shapeCasts_S128_S1x128 := rfl

end Cert.KernelIdeal.Stages

end
-- ==== Proof.KKeep.lean ====
/- Per list of host operations: the buffers the list's operations write, and that a buffer outside them keeps its contents. -/
import proofs.«138321_j16853451670012_1_alg».proof.Proof.Gen.KernelIdeal.Launch
import Idealize.ShloMosaic.Lib.StableHlo.Run

noncomputable section

namespace Cert.KernelIdeal.Keep

open Cert.KernelIdeal Cert.KernelIdeal.Gen Idealize.ShloMosaic Idealize.ShloMosaic.TcCoe Idealize.SL.Sem

variable {F : FTy → Type} [FloatOps F]

/-- The buffers hostOps0's operations write. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer hostOps0 does not write keeps its contents through it. -/
theorem hostOps0_keep (V : Valuation τ sig (Elt F)) (r : Ref sig .tc) (h : r ∉ hostOps0_W) :
    StableHlo.after hostOps0 V (Proc.devRef .tc r) = V (Proc.devRef .tc r) :=
  StableHlo.after_of_writes_sub hostOps0 V hostOps0_writes h

/-- The buffers hostOps0_1's operations write. -/
abbrev hostOps0_1_W : List (Ref sig .tc) := [main_call0_v0, main_call0_v1, main_v14]
theorem hostOps0_1_writes : (hostOps0_1 : List (HloOp τ sig (Elt F))).Forall fun op => op.writes ⊆ (hostOps0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer hostOps0_1 does not write keeps its contents through it. -/
theorem hostOps0_1_keep (V : Valuation τ sig (Elt F)) (r : Ref sig .tc) (h : r ∉ hostOps0_1_W) :
    StableHlo.after hostOps0_1 V (Proc.devRef .tc r) = V (Proc.devRef .tc r) :=
  StableHlo.after_of_writes_sub hostOps0_1 V hostOps0_1_writes h

/-- The buffers hostOps0_2's operations write. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29]
theorem hostOps0_2_writes : (hostOps0_2 : List (HloOp τ sig (Elt F))).Forall fun op => op.writes ⊆ (hostOps0_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer hostOps0_2 does not write keeps its contents through it. -/
theorem hostOps0_2_keep (V : Valuation τ sig (Elt F)) (r : Ref sig .tc) (h : r ∉ hostOps0_2_W) :
    StableHlo.after hostOps0_2 V (Proc.devRef .tc r) = V (Proc.devRef .tc r) :=
  StableHlo.after_of_writes_sub hostOps0_2 V hostOps0_2_writes h

/-- The buffers hostOps1's operations write. -/
abbrev hostOps1_W : List (Ref sig .tc) := [main_c_6, main_v31, main_v32, main_c_7, main_v33, main_v34, main_v35, main_v36, main_v37, main_v38, main_v39, main_v40, main_cst_8, main_v41, main_v42, main_v43, main_v44]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer hostOps1 does not write keeps its contents through it. -/
theorem hostOps1_keep (V : Valuation τ sig (Elt F)) (r : Ref sig .tc) (h : r ∉ hostOps1_W) :
    StableHlo.after hostOps1 V (Proc.devRef .tc r) = V (Proc.devRef .tc r) :=
  StableHlo.after_of_writes_sub hostOps1 V hostOps1_writes h

/-- The buffers hostOps3's operations write. -/
abbrev hostOps3_W : List (Ref sig .tc) := [main_c_9, main_v47, main_v48, main_c_10, main_v49, main_v50, main_v51, main_v52, main_v53, main_v54, main_v55, main_v56, main_cst_11, main_v57, main_v58, main_v59, main_v60, main_v61, main_v62]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer hostOps3 does not write keeps its contents through it. -/
theorem hostOps3_keep (V : Valuation τ sig (Elt F)) (r : Ref sig .tc) (h : r ∉ hostOps3_W) :
    StableHlo.after hostOps3 V (Proc.devRef .tc r) = V (Proc.devRef .tc r) :=
  StableHlo.after_of_writes_sub hostOps3 V hostOps3_writes h

end Cert.KernelIdeal.Keep

end
-- ==== Proof.LibRowCast.lean ====
/-
  A vector of n entries as a one-row matrix, two spellings: the cast of the vector to the shape [1, n], and the
  broadcast of the vector along axis 1 into that shape. Both read the vector's entry q at (0, q).
-/
import Idealize.ShloMosaic.Lib.Pipeline.Value
import Idealize.ShloMosaic.Lib.ValueIdx

namespace Idealize.ShloMosaic.RowCast

open Idealize.ShloMosaic Idealize.ShloMosaic.ValueIdx

/-- The cast of a vector to one row is its broadcast along the row's axis. -/
theorem shapeCast_row_eq_broadcastInDim {α : Type} {n : Nat} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  have hi : i = ix2 (0 : Fin 1) (i 1 : Fin n) := by
    funext a
    match a with
    | ⟨0, _⟩ => exact Fin.ext (Nat.lt_one_iff.mp (i 0).isLt)
    | ⟨1, _⟩ => rfl
  rw [hi]
  have e2 := shapeCast_apply x h1 (ix2 (0 : Fin 1) (i 1 : Fin n)) (ix1 (i 1 : Fin n)) (by
    rw [Shape.rowMajor_val_two, Shape.rowMajor_val_one]; show (i 1).val = 0 * n + (i 1).val; omega)
  have e3 := broadcastInDim_apply ![1] hd x (ix2 (0 : Fin 1) (i 1 : Fin n)) (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

end Idealize.ShloMosaic.RowCast
-- ==== Proof.KValue.lean ====
/-
  The value of the three-region program: the contents of its result buffer at the last boundary, followed back through
  the boundaries. At each boundary the buffers the later stages read hold the specification's functions of the launch
  arguments: the edges' sources, targets and weights from before the first region on; the first product after region 0
  (ten row blocks of it, which are the whole); the first neighbourhood sum and the bias as one row after the next host
  stretch; the hidden features after region 1; the second product after region 2; the network's result after the last
  stretch. A region changes only its output array, a host stretch only the buffers its operations write.
-/
import proofs.«138321_j16853451670012_1_alg».proof.Proof.KernelIdealResult
import proofs.«138321_j16853451670012_1_alg».proof.Proof.KRegion0
import proofs.«138321_j16853451670012_1_alg».proof.Proof.KRegion1
import proofs.«138321_j16853451670012_1_alg».proof.Proof.KRegion2
import proofs.«138321_j16853451670012_1_alg».proof.Proof.KStages
import proofs.«138321_j16853451670012_1_alg».proof.Proof.KKeep
import proofs.«138321_j16853451670012_1_alg».proof.Proof.LibRowCast

set_option maxRecDepth 16384

noncomputable section

namespace Cert.KernelIdeal.Value

open Cert.KernelIdeal Cert.KernelIdeal.Gen Cert.KernelIdeal.Keep Cert.KernelIdeal.Stages
open Idealize.ShloMosaic Idealize.ShloMosaic.TcCoe Idealize.SL.Sem Idealize.ShloMosaic.StableHlo

variable (m : (ℓ : Loc nD τ sig) → Buf (Elt Ideal) ℓ) (ρ : Dev nD → PrngReg)

/-- The sources, from the launch edge list. -/
abbrev srcs (c : Dev nD) := Gcn.rowOf (F := Ideal) (m ((c : Thread nD τ).loc main_arg1))
/-- The targets. -/
abbrev tgts (c : Dev nD) := Gcn.colOf (F := Ideal) (m ((c : Thread nD τ).loc main_arg1))
/-- The edges' weights. -/
abbrev wts (c : Dev nD) := Gcn.normOf (F := Ideal) (Gcn.dinvOf (F := Ideal) (tgts m c)) (srcs m c) (tgts m c)
/-- The first product. -/
abbrev prod1 (c : Dev nD) := Gcn.mm1 (F := Ideal) (m ((c : Thread nD τ).loc main_arg0)) (m ((c : Thread nD τ).loc main_arg2))
/-- The hidden features, the bias as the one-row cast of the bias vector. -/
abbrev hid (c : Dev nD) := Gcn.hidden (F := Ideal) (prod1 m c) (srcs m c) (tgts m c) (wts m c)
  (shapeCast S1x128 (m ((c : Thread nD τ).loc main_arg3)) Cert.KernelIdeal.Facts₀.shapeCasts_S128_S1x128)

/-! ## Before the first region -/

theorem W1_row (c : Dev nD) : W1 m ρ c (Proc.devRef .tc main_v3) = srcs m c := k0_row (W0 m ρ c)
theorem W1_col (c : Dev nD) : W1 m ρ c (Proc.devRef .tc main_v6) = tgts m c := k0_col (W0 m ρ c)

theorem W2_row (c : Dev nD) : W2 m ρ c (Proc.devRef .tc main_v3) = srcs m c :=
  (hostOps0_1_keep (W1 m ρ c) main_v3 (by decide)).trans (W1_row m ρ c)
theorem W2_col (c : Dev nD) : W2 m ρ c (Proc.devRef .tc main_v6) = tgts m c :=
  (hostOps0_1_keep (W1 m ρ c) main_v6 (by decide)).trans (W1_col m ρ c)
theorem W2_dinv (c : Dev nD) : W2 m ρ c (Proc.devRef .tc main_v14) = Gcn.dinvOf (F := Ideal) (tgts m c) :=
  (k1_dinv (W1 m ρ c)).trans (by
    rw [show W1 m ρ c (Proc.devRef .tc main_v12) = _ from k0_mask (W0 m ρ c), show W1 m ρ c (Proc.devRef .tc main_v13) = _ from k0_rs (W0 m ρ c),
      show W1 m ρ c (Proc.devRef .tc main_cst_2) = _ from k0_z (W0 m ρ c)]
    rfl)

theorem W3_row (c : Dev nD) : W3 m ρ c (Proc.devRef .tc main_v3) = srcs m c :=
  (hostOps0_2_keep (W2 m ρ c) main_v3 (by decide)).trans (W2_row m ρ c)
theorem W3_col (c : Dev nD) : W3 m ρ c (Proc.devRef .tc main_v6) = tgts m c :=
  (hostOps0_2_keep (W2 m ρ c) main_v6 (by decide)).trans (W2_col m ρ c)
theorem W3_norm (c : Dev nD) : W3 m ρ c (Proc.devRef .tc main_v29) = wts m c :=
  (k2_norm (W2 m ρ c)).trans (by rw [W2_dinv, W2_row, W2_col])
/-- A buffer none of the three first stretches writes holds its launch contents. -/
theorem W3_keep (c : Dev nD) (r : Ref sig .tc) (h0 : r ∉ hostOps0_W) (h1 : r ∉ hostOps0_1_W) (h2 : r ∉ hostOps0_2_W) :
    W3 m ρ c (Proc.devRef .tc r) = m ((c : Thread nD τ).loc r) :=
  (hostOps0_2_keep (W2 m ρ c) r h2).trans ((hostOps0_1_keep (W1 m ρ c) r h1).trans (hostOps0_keep (W0 m ρ c) r h0))

/-! ## After region 0 -/

theorem W4_prod (c : Dev nD) : W4 m ρ c (Proc.devRef .tc main_v30) = prod1 m c :=
  (W4_arr m ρ c 2).trans ((Region0.final (V3 m ρ) c).trans (by
    rw [show V3 m ρ c main_arg0 = _ from W3_keep m ρ c main_arg0 (by decide) (by decide) (by decide),
      show V3 m ρ c main_arg2 = _ from W3_keep m ρ c main_arg2 (by decide) (by decide) (by decide)]))
theorem W4_row (c : Dev nD) : W4 m ρ c (Proc.devRef .tc main_v3) = srcs m c := (W4_of_ne m ρ c main_v3 (by decide)).trans (W3_row m ρ c)
theorem W4_col (c : Dev nD) : W4 m ρ c (Proc.devRef .tc main_v6) = tgts m c := (W4_of_ne m ρ c main_v6 (by decide)).trans (W3_col m ρ c)
theorem W4_norm (c : Dev nD) : W4 m ρ c (Proc.devRef .tc main_v29) = wts m c := (W4_of_ne m ρ c main_v29 (by decide)).trans (W3_norm m ρ c)
theorem W4_arg3 (c : Dev nD) : W4 m ρ c (Proc.devRef .tc main_arg3) = (m ((c : Thread nD τ).loc main_arg3)) :=
  (W4_of_ne m ρ c main_arg3 (by decide)).trans (W3_keep m ρ c main_arg3 (by decide) (by decide) (by decide))
theorem W4_arg4 (c : Dev nD) : W4 m ρ c (Proc.devRef .tc main_arg4) = (m ((c : Thread nD τ).loc main_arg4)) :=
  (W4_of_ne m ρ c main_arg4 (by decide)).trans (W3_keep m ρ c main_arg4 (by decide) (by decide) (by decide))
theorem W4_arg5 (c : Dev nD) : W4 m ρ c (Proc.devRef .tc main_arg5) = (m ((c : Thread nD τ).loc main_arg5)) :=
  (W4_of_ne m ρ c main_arg5 (by decide)).trans (W3_keep m ρ c main_arg5 (by decide) (by decide) (by decide))

/-! ## Before region 1 -/

theorem W5_agg (c : Dev nD) : W5 m ρ c (Proc.devRef .tc main_v43) = Gcn.agg128 (F := Ideal) (prod1 m c) (srcs m c) (tgts m c) (wts m c) :=
  (k3_agg (W4 m ρ c)).trans (by rw [W4_prod, W4_row, W4_col, W4_norm])
theorem W5_bias (c : Dev nD) : W5 m ρ c (Proc.devRef .tc main_v44) = shapeCast S1x128 (m ((c : Thread nD τ).loc main_arg3)) Cert.KernelIdeal.Facts₀.shapeCasts_S128_S1x128 :=
  (k3_row (W4 m ρ c)).trans (by rw [W4_arg3])
theorem W5_row (c : Dev nD) : W5 m ρ c (Proc.devRef .tc main_v3) = srcs m c := (hostOps1_keep (W4 m ρ c) main_v3 (by decide)).trans (W4_row m ρ c)
theorem W5_col (c : Dev nD) : W5 m ρ c (Proc.devRef .tc main_v6) = tgts m c := (hostOps1_keep (W4 m ρ c) main_v6 (by decide)).trans (W4_col m ρ c)
theorem W5_norm (c : Dev nD) : W5 m ρ c (Proc.devRef .tc main_v29) = wts m c := (hostOps1_keep (W4 m ρ c) main_v29 (by decide)).trans (W4_norm m ρ c)
theorem W5_arg4 (c : Dev nD) : W5 m ρ c (Proc.devRef .tc main_arg4) = (m ((c : Thread nD τ).loc main_arg4)) := (hostOps1_keep (W4 m ρ c) main_arg4 (by decide)).trans (W4_arg4 m ρ c)
theorem W5_arg5 (c : Dev nD) : W5 m ρ c (Proc.devRef .tc main_arg5) = (m ((c : Thread nD τ).loc main_arg5)) := (hostOps1_keep (W4 m ρ c) main_arg5 (by decide)).trans (W4_arg5 m ρ c)

/-! ## After region 1 -/

theorem W6_hid (c : Dev nD) : W6 m ρ c (Proc.devRef .tc main_v45) = hid m c :=
  (W6_arr m ρ c 2).trans ((Region1.final (V5 m ρ) c).trans (by
    rw [show V5 m ρ c main_v43 = _ from W5_agg m ρ c, show V5 m ρ c main_v44 = _ from W5_bias m ρ c]
    rfl))
theorem W6_row (c : Dev nD) : W6 m ρ c (Proc.devRef .tc main_v3) = srcs m c := (W6_of_ne m ρ c main_v3 (by decide)).trans (W5_row m ρ c)
theorem W6_col (c : Dev nD) : W6 m ρ c (Proc.devRef .tc main_v6) = tgts m c := (W6_of_ne m ρ c main_v6 (by decide)).trans (W5_col m ρ c)
theorem W6_norm (c : Dev nD) : W6 m ρ c (Proc.devRef .tc main_v29) = wts m c := (W6_of_ne m ρ c main_v29 (by decide)).trans (W5_norm m ρ c)
theorem W6_arg4 (c : Dev nD) : W6 m ρ c (Proc.devRef .tc main_arg4) = (m ((c : Thread nD τ).loc main_arg4)) := (W6_of_ne m ρ c main_arg4 (by decide)).trans (W5_arg4 m ρ c)
theorem W6_arg5 (c : Dev nD) : W6 m ρ c (Proc.devRef .tc main_arg5) = (m ((c : Thread nD τ).loc main_arg5)) := (W6_of_ne m ρ c main_arg5 (by decide)).trans (W5_arg5 m ρ c)

/-! ## After region 2 -/

theorem W7_prod (c : Dev nD) : W7 m ρ c (Proc.devRef .tc main_v46) = Gcn.mm2 (F := Ideal) (hid m c) (m ((c : Thread nD τ).loc main_arg4)) :=
  (W7_arr m ρ c 2).trans ((Region2.final (V6 m ρ) c).trans (by
    rw [show V6 m ρ c main_v45 = _ from W6_hid m ρ c, show V6 m ρ c main_arg4 = _ from W6_arg4 m ρ c]))
theorem W7_row (c : Dev nD) : W7 m ρ c (Proc.devRef .tc main_v3) = srcs m c := (W7_of_ne m ρ c main_v3 (by decide)).trans (W6_row m ρ c)
theorem W7_col (c : Dev nD) : W7 m ρ c (Proc.devRef .tc main_v6) = tgts m c := (W7_of_ne m ρ c main_v6 (by decide)).trans (W6_col m ρ c)
theorem W7_norm (c : Dev nD) : W7 m ρ c (Proc.devRef .tc main_v29) = wts m c := (W7_of_ne m ρ c main_v29 (by decide)).trans (W6_norm m ρ c)
theorem W7_arg5 (c : Dev nD) : W7 m ρ c (Proc.devRef .tc main_arg5) = (m ((c : Thread nD τ).loc main_arg5)) := (W7_of_ne m ρ c main_arg5 (by decide)).trans (W6_arg5 m ρ c)

/-! ## The result -/

/-- The result buffer at the last boundary is the network of the launch arguments. -/
theorem W8_net (c : Dev nD) : W8 m ρ c (Proc.devRef .tc main_v62)
    = Gcn.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (k4_out (W7 m ρ c)).trans (by
    rw [W7_prod, W7_row, W7_col, W7_norm, W7_arg5]
    unfold Gcn.net
    rw [← RowCast.shapeCast_row_eq_broadcastInDim (n := 128) (m ((c : Thread nD τ).loc main_arg3)) Cert.KernelIdeal.Facts₀.shapeCasts_S128_S1x128])

/-- The run, read: the result array ends at the network of the launch arguments, the arguments as launched. -/
theorem run : θ_run defs (onTc (τ := τ) (main (F := Ideal))) ⟨m, fun _ => 0, ρ⟩ (fun r => ∀ c : Dev nD,
      r.2.mem ((c.tc : Thread nD τ).loc main_v62)
        = Gcn.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (W8_net m ρ c), (h c).2⟩) (Cert.KernelIdeal.Result.run m ρ)

end Cert.KernelIdeal.Value

end
-- ==== Proof.RefOps.lean ====
/- The reference program's @main as lists of its host operations, cut at the stages of the computation: the edge
  endpoints with self loops and the degree's reciprocal root; the selection of that root where the degree is positive
  (an outlined function, inlined here at its call over the call's buffers); the edge weights; the first product; the first
  weighted neighbourhood sum; the bias; the exponential linear unit (an outlined function calling two more, inlined
  likewise); the second product; the second neighbourhood sum with its bias. -/
import proofs.«138321_j16853451670012_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem

variable {F : FTy → Type} [FloatOps F]

/-- 18 operations. -/
abbrev opsEdges : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32) ]
theorem opsEdges_sub : (opsEdges : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub ..⟩
theorem opsEdges_fresh : (opsEdges : List (HloOp τ sig (Elt F))).Forall fun op => op.fresh = ∅ := by
  simp only [List.Forall]; repeat' constructor

/-- 3 operations. -/
abbrev opsDinv : List (HloOp τ sig (Elt F)) :=
  [ StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v12 : StableHlo.TRef sig ⟨S50000, .i1⟩) (.of main_v13 : StableHlo.TRef sig ⟨S50000, .f32⟩) (.of main_call0_v1 : StableHlo.TRef sig ⟨S50000, .f32⟩) (.of main_v14 : StableHlo.TRef sig ⟨S50000, .f32⟩) select ]
theorem opsDinv_sub : (opsDinv : List (HloOp τ sig (Elt F))).Forall fun op => op.bufs ⊆ StableHlo.tcRefs τ sig :=
  ⟨StableHlo.unary_bufs_sub .., StableHlo.unary_bufs_sub .., StableHlo.ternary_bufs_sub ..⟩
theorem opsDinv_fresh : (opsDinv : List (HloOp τ sig (Elt F))).Forall fun op => op.fresh = ∅ := by
  simp only [List.Forall]; repeat' constructor

/-- 19 operations. -/
abbrev opsNorm : List (HloOp τ sig (Elt F)) :=
  [ StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)) ]
theorem opsNorm_sub : (opsNorm : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem opsNorm_fresh : (opsNorm : List (HloOp τ sig (Elt F))).Forall fun op => op.fresh = ∅ := by
  simp only [List.Forall]; repeat' constructor

/-- 1 operations. -/
abbrev opsDot1 : List (HloOp τ sig (Elt F)) :=
  [ StableHlo.binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]
theorem opsDot1_sub : (opsDot1 : List (HloOp τ sig (Elt F))).Forall fun op => op.bufs ⊆ StableHlo.tcRefs τ sig :=
  StableHlo.binary_bufs_sub ..
theorem opsDot1_fresh : (opsDot1 : List (HloOp τ sig (Elt F))).Forall fun op => op.fresh = ∅ := by
  simp only [List.Forall]; repeat' constructor

/-- 16 operations. -/
abbrev opsAgg1 : List (HloOp τ sig (Elt F)) :=
  [ StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v3 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v29 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x128 ![0, 1] bcast_S850000x1_S850000x128_0_1 : (⟨S850000x1, .f32⟩ : BufTy).Contents (Elt F) → (⟨S850000x128, .f32⟩ : BufTy).Contents (Elt F)),
    StableHlo.binary main_v37 main_v39 main_v40 (mulf : (⟨S850000x128, .f32⟩ : BufTy).Contents (Elt F) → (⟨S850000x128, .f32⟩ : BufTy).Contents (Elt F) → (⟨S850000x128, .f32⟩ : BufTy).Contents (Elt F)),
    StableHlo.nullary main_cst_8 (constant S_ .f32 0x00000000#32),
    StableHlo.unary main_cst_8 main_v41 (broadcastInDim S50000x128 ![] bcast_S_S50000x128 : (⟨S_, .f32⟩ : BufTy).Contents (Elt F) → (⟨S50000x128, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]
theorem opsAgg1_sub : (opsAgg1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub ..⟩
theorem opsAgg1_fresh : (opsAgg1 : List (HloOp τ sig (Elt F))).Forall fun op => op.fresh = ∅ := by
  simp only [List.Forall]; repeat' constructor

/-- 3 operations. -/
abbrev opsBias1 : List (HloOp τ sig (Elt F)) :=
  [ StableHlo.unary main_arg3 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)) ]
theorem opsBias1_sub : (opsBias1 : List (HloOp τ sig (Elt F))).Forall fun op => op.bufs ⊆ StableHlo.tcRefs τ sig :=
  ⟨StableHlo.unary_bufs_sub .., StableHlo.unary_bufs_sub .., StableHlo.binary_bufs_sub ..⟩
theorem opsBias1_fresh : (opsBias1 : List (HloOp τ sig (Elt F))).Forall fun op => op.fresh = ∅ := by
  simp only [List.Forall]; repeat' constructor

/-- 15 operations. -/
abbrev opsElu : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x128, .f32⟩) (broadcastInDim S50000x128 ![] bcast_S_S50000x128),
    StableHlo.TRef.binary (.of main_v46 : StableHlo.TRef sig ⟨S50000x128, .f32⟩) (.of main_call1_v0 : StableHlo.TRef sig ⟨S50000x128, .f32⟩) (.of main_call1_v1 : StableHlo.TRef sig ⟨S50000x128, .i1⟩) (cmpf .ogt),
    StableHlo.TRef.nullary (.of main_call1_cst_0 : StableHlo.TRef sig ⟨S_, .f32⟩) (constant S_ .f32 0x00000000#32),
    StableHlo.TRef.unary (.of main_call1_cst_0 : StableHlo.TRef sig ⟨S_, .f32⟩) (.of main_call1_v2 : StableHlo.TRef sig ⟨S50000x128, .f32⟩) (broadcastInDim S50000x128 ![] bcast_S_S50000x128),
    StableHlo.TRef.binary (.of main_v46 : StableHlo.TRef sig ⟨S50000x128, .f32⟩) (.of main_call1_v2 : StableHlo.TRef sig ⟨S50000x128, .f32⟩) (.of main_call1_v3 : StableHlo.TRef sig ⟨S50000x128, .i1⟩) (cmpf .ogt),
    StableHlo.TRef.nullary (.of main_call1_cst_1 : StableHlo.TRef sig ⟨S_, .f32⟩) (constant S_ .f32 0x00000000#32),
    StableHlo.TRef.unary (.of main_call1_cst_1 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S50000x128, .f32⟩) (broadcastInDim S50000x128 ![] bcast_S_S50000x128),
    StableHlo.TRef.ternary (.of main_call1_v3 : StableHlo.TRef sig ⟨S50000x128, .i1⟩) (.of main_call1_call0_v1 : StableHlo.TRef sig ⟨S50000x128, .f32⟩) (.of main_v46 : StableHlo.TRef sig ⟨S50000x128, .f32⟩) (.of main_call1_v4 : StableHlo.TRef sig ⟨S50000x128, .f32⟩) select,
    StableHlo.TRef.unary (.of main_call1_v4 : StableHlo.TRef sig ⟨S50000x128, .f32⟩) (.of main_call1_v5 : StableHlo.TRef sig ⟨S50000x128, .f32⟩) Host.expm1,
    StableHlo.TRef.nullary (.of main_call1_cst_2 : StableHlo.TRef sig ⟨S_, .f32⟩) (constant S_ .f32 0x3F800000#32),
    StableHlo.TRef.unary (.of main_call1_cst_2 : StableHlo.TRef sig ⟨S_, .f32⟩) (.of main_call1_v6 : StableHlo.TRef sig ⟨S50000x128, .f32⟩) (broadcastInDim S50000x128 ![] bcast_S_S50000x128),
    StableHlo.TRef.binary (.of main_call1_v6 : StableHlo.TRef sig ⟨S50000x128, .f32⟩) (.of main_call1_v5 : StableHlo.TRef sig ⟨S50000x128, .f32⟩) (.of main_call1_v7 : StableHlo.TRef sig ⟨S50000x128, .f32⟩) mulf,
    StableHlo.TRef.ternary (.of main_call1_v1 : StableHlo.TRef sig ⟨S50000x128, .i1⟩) (.of main_v46 : StableHlo.TRef sig ⟨S50000x128, .f32⟩) (.of main_call1_v7 : StableHlo.TRef sig ⟨S50000x128, .f32⟩) (.of main_v47 : StableHlo.TRef sig ⟨S50000x128, .f32⟩) select ]
theorem opsElu_sub : (opsElu : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
theorem opsElu_fresh : (opsElu : List (HloOp τ sig (Elt F))).Forall fun op => op.fresh = ∅ := by
  simp only [List.Forall]; repeat' constructor

/-- 1 operations. -/
abbrev opsDot2 : List (HloOp τ sig (Elt F)) :=
  [ StableHlo.binary main_v47 main_arg4 main_v48 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]
theorem opsDot2_sub : (opsDot2 : List (HloOp τ sig (Elt F))).Forall fun op => op.bufs ⊆ StableHlo.tcRefs τ sig :=
  StableHlo.binary_bufs_sub ..
theorem opsDot2_fresh : (opsDot2 : List (HloOp τ sig (Elt F))).Forall fun op => op.fresh = ∅ := by
  simp only [List.Forall]; repeat' constructor

/-- 19 operations. -/
abbrev opsAgg2 : List (HloOp τ sig (Elt F)) :=
  [ StableHlo.nullary main_c_9 (constantI S_ 32 0#32),
    StableHlo.unary main_c_9 main_v49 (broadcastInDim S850000 ![] bcast_S_S850000 : (⟨S_, .i32⟩ : BufTy).Contents (Elt F) → (⟨S850000, .i32⟩ : BufTy).Contents (Elt F)),
    StableHlo.binary main_v3 main_v49 main_v50 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v51 (broadcastInDim S850000 ![] bcast_S_S850000 : (⟨S_, .i32⟩ : BufTy).Contents (Elt F) → (⟨S850000, .i32⟩ : BufTy).Contents (Elt F)),
    StableHlo.binary main_v3 main_v51 main_v52 (addi : (⟨S850000, .i32⟩ : BufTy).Contents (Elt F) → (⟨S850000, .i32⟩ : BufTy).Contents (Elt F) → (⟨S850000, .i32⟩ : BufTy).Contents (Elt F)),
    StableHlo.ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v53 main_v54 (broadcastInDim S850000x1 ![0] bcast_S850000_S850000x1_0 : (⟨S850000, .i32⟩ : BufTy).Contents (Elt F) → (⟨S850000x1, .i32⟩ : BufTy).Contents (Elt F)),
    StableHlo.binary main_v48 main_v54 main_v55 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v29 main_v56 (broadcastInDim S850000x1 ![0] bcast_S850000_S850000x1_0 : (⟨S850000, .f32⟩ : BufTy).Contents (Elt F) → (⟨S850000x1, .f32⟩ : BufTy).Contents (Elt F)),
    StableHlo.unary main_v56 main_v57 (broadcastInDim S850000x64 ![0, 1] bcast_S850000x1_S850000x64_0_1 : (⟨S850000x1, .f32⟩ : BufTy).Contents (Elt F) → (⟨S850000x64, .f32⟩ : BufTy).Contents (Elt F)),
    StableHlo.binary main_v55 main_v57 main_v58 (mulf : (⟨S850000x64, .f32⟩ : BufTy).Contents (Elt F) → (⟨S850000x64, .f32⟩ : BufTy).Contents (Elt F) → (⟨S850000x64, .f32⟩ : BufTy).Contents (Elt F)),
    StableHlo.nullary main_cst_11 (constant S_ .f32 0x00000000#32),
    StableHlo.unary main_cst_11 main_v59 (broadcastInDim S50000x64 ![] bcast_S_S50000x64 : (⟨S_, .f32⟩ : BufTy).Contents (Elt F) → (⟨S50000x64, .f32⟩ : BufTy).Contents (Elt F)),
    StableHlo.unary main_v6 main_v60 (broadcastInDim S850000x1 ![0] bcast_S850000_S850000x1_0 : (⟨S850000, .i32⟩ : BufTy).Contents (Elt F) → (⟨S850000x1, .i32⟩ : BufTy).Contents (Elt F)),
    StableHlo.ternary main_v59 main_v60 main_v58 main_v61 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg5 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S50000x64 ![0, 1] bcast_S1x64_S50000x64_0_1 : (⟨S1x64, .f32⟩ : BufTy).Contents (Elt F) → (⟨S50000x64, .f32⟩ : BufTy).Contents (Elt F)),
    StableHlo.binary main_v61 main_v63 main_v64 (addf : (⟨S50000x64, .f32⟩ : BufTy).Contents (Elt F) → (⟨S50000x64, .f32⟩ : BufTy).Contents (Elt F) → (⟨S50000x64, .f32⟩ : BufTy).Contents (Elt F)) ]
theorem opsAgg2_sub : (opsAgg2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
theorem opsAgg2_fresh : (opsAgg2 : List (HloOp τ sig (Elt F))).Forall fun op => op.fresh = ∅ := by
  simp only [List.Forall]; repeat' constructor

end Cert.ReferenceIdeal.Ops

end
-- ==== Proof.RefRun.lean ====
/-
  The reference program's run: @main is the straight line of the stages' operations in order (the outlined
  functions' bodies unfold at their calls), so every weakly fair execution terminates with every buffer at the
  operations' fold over the launch memory.
-/
import proofs.«138321_j16853451670012_1_alg».proof.Proof.RefOps

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The stages up to the second product (the first of @main's two printed parts). -/
abbrev opsA : List (HloOp τ sig (Elt F)) :=
  opsEdges ++ (opsDinv ++ (opsNorm ++ (opsDot1 ++ (opsAgg1 ++ (opsBias1 ++ (opsElu ++ opsDot2))))))

/-- All of @main's operations in order. -/
abbrev ops : List (HloOp τ sig (Elt F)) := opsA ++ opsAgg2

set_option maxRecDepth 16384 in
set_option maxHeartbeats 4000000 in
theorem main_part0_eq (c : Dev nD) : main_part0 (F := F) c = seq opsA := rfl

set_option maxRecDepth 16384 in
set_option maxHeartbeats 4000000 in
theorem main_part1_eq (c : Dev nD) : main_part1 (F := F) c = seq opsAgg2 := rfl

theorem main_eq (c : Dev nD) : main (F := F) c = seq ops := by
  show (main_part0 (F := F) c >>= fun _ => main_part1 (F := F) c) = _
  rw [main_part0_eq, main_part1_eq, ← seq_append]

theorem scopedRefs_eq : (Finset.univ.filter fun b : Ref sig .tc => b.isScoped) = ∅ := by decide
theorem scopedSems_eq : (Finset.univ.filter fun sm : SemLoc sig => sm.isScoped .tc) = ∅ := by decide

theorem ops_mem {p : HloOp τ sig (Elt F) → Prop} (h0 : (opsEdges (F := F)).Forall p) (h1 : (opsDinv (F := F)).Forall p)
    (h2 : (opsNorm (F := F)).Forall p) (h3 : (opsDot1 (F := F)).Forall p) (h4 : (opsAgg1 (F := F)).Forall p)
    (h5 : (opsBias1 (F := F)).Forall p) (h6 : (opsElu (F := F)).Forall p) (h7 : (opsDot2 (F := F)).Forall p)
    (h8 : (opsAgg2 (F := F)).Forall p) : ∀ op ∈ (ops : List (HloOp τ sig (Elt F))), p op := by
  intro op h
  simp only [ops, opsA, List.mem_append] at h
  rcases h with (h | h | h | h | h | h | h | h) | h
  exacts [List.forall_iff_forall_mem.mp h0 op h, List.forall_iff_forall_mem.mp h1 op h, List.forall_iff_forall_mem.mp h2 op h,
    List.forall_iff_forall_mem.mp h3 op h, List.forall_iff_forall_mem.mp h4 op h, List.forall_iff_forall_mem.mp h5 op h,
    List.forall_iff_forall_mem.mp h6 op h, List.forall_iff_forall_mem.mp h7 op h, List.forall_iff_forall_mem.mp h8 op h]

theorem ops_sub : (ops : List (HloOp τ sig (Elt F))).Forall fun op => op.bufs ⊆ tcRefs τ sig :=
  List.forall_iff_forall_mem.mpr (ops_mem opsEdges_sub opsDinv_sub opsNorm_sub opsDot1_sub opsAgg1_sub opsBias1_sub opsElu_sub opsDot2_sub opsAgg2_sub)

/-- Every weakly fair execution of @main terminates, every buffer at the operations' fold over the launch memory. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => ops_mem opsEdges_fresh opsDinv_fresh opsNorm_fresh opsDot1_fresh opsAgg1_fresh opsBias1_fresh opsElu_fresh opsDot2_fresh opsAgg2_fresh)

end Cert.ReferenceIdeal.Ops

end
-- ==== Proof.RStages.lean ====
/-
  What each stage of the reference's host operations computes, as the specification's functions of the buffers the stage
  reads (the operations of a stage composed, read at one result buffer).
-/
import proofs.«138321_j16853451670012_1_alg».proof.Proof.RefOps
import proofs.«138321_j16853451670012_1_alg».proof.Proof.Spec
import Idealize.ShloMosaic.Lib.StableHlo.Run

set_option maxRecDepth 16384
set_option maxHeartbeats 1000000

noncomputable section

namespace Cert.ReferenceIdeal.Stages

open Cert.ReferenceIdeal Cert.ReferenceIdeal.Gen Cert.ReferenceIdeal.Ops
open Idealize.ShloMosaic Idealize.ShloMosaic.TcCoe Idealize.SL.Sem Idealize.ShloMosaic.StableHlo

variable {F : FTy → Type} [FloatOps F]

/-- The sources after the edge stretch. -/
theorem r0_row (V : Valuation τ sig (Elt F)) :
    after opsEdges V (Proc.devRef .tc main_v3) = Gcn.rowOf (F := F) (V (Proc.devRef .tc main_arg1)) := rfl

/-- The targets after the edge stretch. -/
theorem r0_col (V : Valuation τ sig (Elt F)) :
    after opsEdges V (Proc.devRef .tc main_v6) = Gcn.colOf (F := F) (V (Proc.devRef .tc main_arg1)) := rfl

/-- Where the degree is positive. -/
theorem r0_mask (V : Valuation τ sig (Elt F)) :
    after opsEdges V (Proc.devRef .tc main_v12)
      = cmpf .ogt (Gcn.degOf (F := F) (Gcn.colOf (F := F) (V (Proc.devRef .tc main_arg1)))) (broadcastInDim S50000 ![] Cert.ReferenceIdeal.Facts₀.bcast_S_S50000 (constant S_ .f32 0x00000000#32)) := rfl

/-- The degree's reciprocal square root. -/
theorem r0_rs (V : Valuation τ sig (Elt F)) :
    after opsEdges V (Proc.devRef .tc main_v13) = Host.rsqrt (Gcn.degOf (F := F) (Gcn.colOf (F := F) (V (Proc.devRef .tc main_arg1)))) := rfl

/-- The zero the selection falls back to. -/
theorem r0_z (V : Valuation τ sig (Elt F)) :
    after opsEdges V (Proc.devRef .tc main_cst_2) = (constant S_ .f32 0x00000000#32 : FVec F S_ .f32) := rfl

/-- The selection of the reciprocal root where the degree is positive. -/
theorem r1_dinv (V : Valuation τ sig (Elt F)) :
    after opsDinv V (Proc.devRef .tc main_v14)
      = select (V (Proc.devRef .tc main_v12)) (V (Proc.devRef .tc main_v13)) (broadcastInDim S50000 ![] Cert.ReferenceIdeal.Facts₀.bcast_S_S50000 (id (V (Proc.devRef .tc main_cst_2)))) := rfl

/-- The edges' weights from the nodes' weights and the endpoints. -/
theorem r2_norm (V : Valuation τ sig (Elt F)) :
    after opsNorm V (Proc.devRef .tc main_v29) = Gcn.normOf (F := F) (V (Proc.devRef .tc main_v14)) (V (Proc.devRef .tc main_v3)) (V (Proc.devRef .tc main_v6)) := rfl

/-- The first weighted neighbourhood sum. -/
theorem r3_agg (V : Valuation τ sig (Elt F)) :
    after opsAgg1 V (Proc.devRef .tc main_v43) = Gcn.agg128 (F := F) (V (Proc.devRef .tc main_v30)) (V (Proc.devRef .tc main_v3)) (V (Proc.devRef .tc main_v6)) (V (Proc.devRef .tc main_v29)) := rfl

/-- The second weighted neighbourhood sum and its bias. -/
theorem r4_out (V : Valuation τ sig (Elt F)) :
    after opsAgg2 V (Proc.devRef .tc main_v64) = Gcn.result (F := F) (V (Proc.devRef .tc main_v48)) (V (Proc.devRef .tc main_v3)) (V (Proc.devRef .tc main_v6)) (V (Proc.devRef .tc main_v29)) (V (Proc.devRef .tc main_arg5)) := rfl

/-- The first product. -/
theorem rd1 (V : Valuation τ sig (Elt F)) :
    after opsDot1 V (Proc.devRef .tc main_v30) = Gcn.mm1 (F := F) (V (Proc.devRef .tc main_arg0)) (V (Proc.devRef .tc main_arg2)) := rfl

/-- The bias row added to every row. -/
theorem r3_bias (V : Valuation τ sig (Elt F)) :
    after opsBias1 V (Proc.devRef .tc main_v46)
      = Gcn.addRow128 (F := F) (V (Proc.devRef .tc main_v43)) (broadcastInDim S1x128 ![1] Cert.ReferenceIdeal.Facts₀.bcast_S128_S1x128_1 (V (Proc.devRef .tc main_arg3))) := rfl

/-- The exponential linear unit (the outlined function's operations, at its call). -/
theorem r3_elu (V : Valuation τ sig (Elt F)) :
    after opsElu V (Proc.devRef .tc main_v47) = Gcn.elu (F := F) (V (Proc.devRef .tc main_v46)) := rfl

/-- The second product. -/
theorem rd2 (V : Valuation τ sig (Elt F)) :
    after opsDot2 V (Proc.devRef .tc main_v48) = Gcn.mm2 (F := F) (V (Proc.devRef .tc main_v47)) (V (Proc.devRef .tc main_arg4)) := rfl

end Cert.ReferenceIdeal.Stages

end
-- ==== Proof.RKeep.lean ====
/- Per list of host operations: the buffers the list's operations write, and that a buffer outside them keeps its contents. -/
import proofs.«138321_j16853451670012_1_alg».proof.Proof.RefOps
import Idealize.ShloMosaic.Lib.StableHlo.Run

noncomputable section

namespace Cert.ReferenceIdeal.Keep

open Cert.ReferenceIdeal Cert.ReferenceIdeal.Gen Cert.ReferenceIdeal.Ops Idealize.ShloMosaic Idealize.ShloMosaic.TcCoe Idealize.SL.Sem

variable {F : FTy → Type} [FloatOps F]

/-- The buffers opsEdges's operations write. -/
abbrev opsEdges_W : List (Ref sig .tc) := [main_v0, main_v1, main_v2, main_v3, main_v4, main_v5, main_v6, main_cst, main_v7, main_cst_0, main_v8, main_v9, main_v10, main_cst_1, main_v11, main_v12, main_v13, main_cst_2]
theorem opsEdges_writes : (opsEdges : List (HloOp τ sig (Elt F))).Forall fun op => op.writes ⊆ (opsEdges_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer opsEdges does not write keeps its contents through it. -/
theorem opsEdges_keep (V : Valuation τ sig (Elt F)) (r : Ref sig .tc) (h : r ∉ opsEdges_W) :
    StableHlo.after opsEdges V (Proc.devRef .tc r) = V (Proc.devRef .tc r) :=
  StableHlo.after_of_writes_sub opsEdges V opsEdges_writes h

/-- The buffers opsDinv's operations write. -/
abbrev opsDinv_W : List (Ref sig .tc) := [main_call0_v0, main_call0_v1, main_v14]
theorem opsDinv_writes : (opsDinv : List (HloOp τ sig (Elt F))).Forall fun op => op.writes ⊆ (opsDinv_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer opsDinv does not write keeps its contents through it. -/
theorem opsDinv_keep (V : Valuation τ sig (Elt F)) (r : Ref sig .tc) (h : r ∉ opsDinv_W) :
    StableHlo.after opsDinv V (Proc.devRef .tc r) = V (Proc.devRef .tc r) :=
  StableHlo.after_of_writes_sub opsDinv V opsDinv_writes h

/-- The buffers opsNorm's operations write. -/
abbrev opsNorm_W : List (Ref sig .tc) := [main_c, main_v15, main_v16, main_c_3, main_v17, main_v18, main_v19, main_v20, main_v21, main_c_4, main_v22, main_v23, main_c_5, main_v24, main_v25, main_v26, main_v27, main_v28, main_v29]
theorem opsNorm_writes : (opsNorm : List (HloOp τ sig (Elt F))).Forall fun op => op.writes ⊆ (opsNorm_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer opsNorm does not write keeps its contents through it. -/
theorem opsNorm_keep (V : Valuation τ sig (Elt F)) (r : Ref sig .tc) (h : r ∉ opsNorm_W) :
    StableHlo.after opsNorm V (Proc.devRef .tc r) = V (Proc.devRef .tc r) :=
  StableHlo.after_of_writes_sub opsNorm V opsNorm_writes h

/-- The buffers opsDot1's operations write. -/
abbrev opsDot1_W : List (Ref sig .tc) := [main_v30]
theorem opsDot1_writes : (opsDot1 : List (HloOp τ sig (Elt F))).Forall fun op => op.writes ⊆ (opsDot1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer opsDot1 does not write keeps its contents through it. -/
theorem opsDot1_keep (V : Valuation τ sig (Elt F)) (r : Ref sig .tc) (h : r ∉ opsDot1_W) :
    StableHlo.after opsDot1 V (Proc.devRef .tc r) = V (Proc.devRef .tc r) :=
  StableHlo.after_of_writes_sub opsDot1 V opsDot1_writes h

/-- The buffers opsAgg1's operations write. -/
abbrev opsAgg1_W : List (Ref sig .tc) := [main_c_6, main_v31, main_v32, main_c_7, main_v33, main_v34, main_v35, main_v36, main_v37, main_v38, main_v39, main_v40, main_cst_8, main_v41, main_v42, main_v43]
theorem opsAgg1_writes : (opsAgg1 : List (HloOp τ sig (Elt F))).Forall fun op => op.writes ⊆ (opsAgg1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer opsAgg1 does not write keeps its contents through it. -/
theorem opsAgg1_keep (V : Valuation τ sig (Elt F)) (r : Ref sig .tc) (h : r ∉ opsAgg1_W) :
    StableHlo.after opsAgg1 V (Proc.devRef .tc r) = V (Proc.devRef .tc r) :=
  StableHlo.after_of_writes_sub opsAgg1 V opsAgg1_writes h

/-- The buffers opsBias1's operations write. -/
abbrev opsBias1_W : List (Ref sig .tc) := [main_v44, main_v45, main_v46]
theorem opsBias1_writes : (opsBias1 : List (HloOp τ sig (Elt F))).Forall fun op => op.writes ⊆ (opsBias1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer opsBias1 does not write keeps its contents through it. -/
theorem opsBias1_keep (V : Valuation τ sig (Elt F)) (r : Ref sig .tc) (h : r ∉ opsBias1_W) :
    StableHlo.after opsBias1 V (Proc.devRef .tc r) = V (Proc.devRef .tc r) :=
  StableHlo.after_of_writes_sub opsBias1 V opsBias1_writes h

/-- The buffers opsElu's operations write. -/
abbrev opsElu_W : List (Ref sig .tc) := [main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v47]
theorem opsElu_writes : (opsElu : List (HloOp τ sig (Elt F))).Forall fun op => op.writes ⊆ (opsElu_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer opsElu does not write keeps its contents through it. -/
theorem opsElu_keep (V : Valuation τ sig (Elt F)) (r : Ref sig .tc) (h : r ∉ opsElu_W) :
    StableHlo.after opsElu V (Proc.devRef .tc r) = V (Proc.devRef .tc r) :=
  StableHlo.after_of_writes_sub opsElu V opsElu_writes h

/-- The buffers opsDot2's operations write. -/
abbrev opsDot2_W : List (Ref sig .tc) := [main_v48]
theorem opsDot2_writes : (opsDot2 : List (HloOp τ sig (Elt F))).Forall fun op => op.writes ⊆ (opsDot2_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer opsDot2 does not write keeps its contents through it. -/
theorem opsDot2_keep (V : Valuation τ sig (Elt F)) (r : Ref sig .tc) (h : r ∉ opsDot2_W) :
    StableHlo.after opsDot2 V (Proc.devRef .tc r) = V (Proc.devRef .tc r) :=
  StableHlo.after_of_writes_sub opsDot2 V opsDot2_writes h

/-- The buffers opsAgg2's operations write. -/
abbrev opsAgg2_W : List (Ref sig .tc) := [main_c_9, main_v49, main_v50, main_c_10, main_v51, main_v52, main_v53, main_v54, main_v55, main_v56, main_v57, main_v58, main_cst_11, main_v59, main_v60, main_v61, main_v62, main_v63, main_v64]
theorem opsAgg2_writes : (opsAgg2 : List (HloOp τ sig (Elt F))).Forall fun op => op.writes ⊆ (opsAgg2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩
/-- A buffer opsAgg2 does not write keeps its contents through it. -/
theorem opsAgg2_keep (V : Valuation τ sig (Elt F)) (r : Ref sig .tc) (h : r ∉ opsAgg2_W) :
    StableHlo.after opsAgg2 V (Proc.devRef .tc r) = V (Proc.devRef .tc r) :=
  StableHlo.after_of_writes_sub opsAgg2 V opsAgg2_writes h

end Cert.ReferenceIdeal.Keep

end
-- ==== Proof.RValue.lean ====
/-
  The value of the reference program: the contents of its result buffer after all its operations, followed back through
  the stages. After each stage the buffers the later stages read hold the specification's functions of the launch
  arguments; a stage changes only the buffers its operations write, and no operation writes an argument.
-/
import proofs.«138321_j16853451670012_1_alg».proof.Proof.RefRun
import proofs.«138321_j16853451670012_1_alg».proof.Proof.RStages
import proofs.«138321_j16853451670012_1_alg».proof.Proof.RKeep

set_option maxRecDepth 16384

noncomputable section

namespace Cert.ReferenceIdeal.Value

open Cert.ReferenceIdeal Cert.ReferenceIdeal.Gen Cert.ReferenceIdeal.Ops Cert.ReferenceIdeal.Keep Cert.ReferenceIdeal.Stages
open Idealize.ShloMosaic Idealize.ShloMosaic.TcCoe Idealize.SL.Sem Idealize.ShloMosaic.StableHlo

variable {F : FTy → Type} [FloatOps F]

/-- Two lines of operations run one after the other: the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

variable (V : Valuation τ sig (Elt F))

/-- The buffers' contents after each stage. -/
abbrev U1 : Valuation τ sig (Elt F) := after opsEdges V
abbrev U2 : Valuation τ sig (Elt F) := after opsDinv (U1 V)
abbrev U3 : Valuation τ sig (Elt F) := after opsNorm (U2 V)
abbrev U4 : Valuation τ sig (Elt F) := after opsDot1 (U3 V)
abbrev U5 : Valuation τ sig (Elt F) := after opsAgg1 (U4 V)
abbrev U6 : Valuation τ sig (Elt F) := after opsBias1 (U5 V)
abbrev U7 : Valuation τ sig (Elt F) := after opsElu (U6 V)
abbrev U8 : Valuation τ sig (Elt F) := after opsDot2 (U7 V)
abbrev U9 : Valuation τ sig (Elt F) := after opsAgg2 (U8 V)

theorem after_ops : after ops V = U9 V := by
  simp only [ops, opsA, after_append]

/-- The sources, the targets, the edges' weights, the first product and the hidden features, of the arguments. -/
abbrev srcs := Gcn.rowOf (F := F) (V (Proc.devRef .tc main_arg1))
abbrev tgts := Gcn.colOf (F := F) (V (Proc.devRef .tc main_arg1))
abbrev wts := Gcn.normOf (F := F) (Gcn.dinvOf (F := F) (tgts V)) (srcs V) (tgts V)
abbrev prod1 := Gcn.mm1 (F := F) (V (Proc.devRef .tc main_arg0)) (V (Proc.devRef .tc main_arg2))
abbrev hid := Gcn.hidden (F := F) (prod1 V) (srcs V) (tgts V) (wts V)
  (broadcastInDim S1x128 ![1] Cert.ReferenceIdeal.Facts₀.bcast_S128_S1x128_1 (V (Proc.devRef .tc main_arg3)))

theorem U2_row : U2 V (Proc.devRef .tc main_v3) = srcs V := (opsDinv_keep (U1 V) main_v3 (by decide)).trans (r0_row V)
theorem U2_col : U2 V (Proc.devRef .tc main_v6) = tgts V := (opsDinv_keep (U1 V) main_v6 (by decide)).trans (r0_col V)
theorem U2_dinv : U2 V (Proc.devRef .tc main_v14) = Gcn.dinvOf (F := F) (tgts V) :=
  (r1_dinv (U1 V)).trans (by
    rw [show U1 V (Proc.devRef .tc main_v12) = _ from r0_mask V, show U1 V (Proc.devRef .tc main_v13) = _ from r0_rs V,
      show U1 V (Proc.devRef .tc main_cst_2) = _ from r0_z V]
    rfl)

theorem U3_row : U3 V (Proc.devRef .tc main_v3) = srcs V := (opsNorm_keep (U2 V) main_v3 (by decide)).trans (U2_row V)
theorem U3_col : U3 V (Proc.devRef .tc main_v6) = tgts V := (opsNorm_keep (U2 V) main_v6 (by decide)).trans (U2_col V)
theorem U3_norm : U3 V (Proc.devRef .tc main_v29) = wts V := (r2_norm (U2 V)).trans (by rw [U2_dinv, U2_row, U2_col])
theorem U3_keep (r : Ref sig .tc) (h0 : r ∉ opsEdges_W) (h1 : r ∉ opsDinv_W) (h2 : r ∉ opsNorm_W) : U3 V (Proc.devRef .tc r) = V (Proc.devRef .tc r) :=
  (opsNorm_keep (U2 V) r h2).trans ((opsDinv_keep (U1 V) r h1).trans (opsEdges_keep V r h0))

theorem U4_prod : U4 V (Proc.devRef .tc main_v30) = prod1 V :=
  (rd1 (U3 V)).trans (by rw [U3_keep V main_arg0 (by decide) (by decide) (by decide), U3_keep V main_arg2 (by decide) (by decide) (by decide)])
theorem U4_row : U4 V (Proc.devRef .tc main_v3) = srcs V := (opsDot1_keep (U3 V) main_v3 (by decide)).trans (U3_row V)
theorem U4_col : U4 V (Proc.devRef .tc main_v6) = tgts V := (opsDot1_keep (U3 V) main_v6 (by decide)).trans (U3_col V)
theorem U4_norm : U4 V (Proc.devRef .tc main_v29) = wts V := (opsDot1_keep (U3 V) main_v29 (by decide)).trans (U3_norm V)
theorem U4_keep (r : Ref sig .tc) (h0 : r ∉ opsEdges_W) (h1 : r ∉ opsDinv_W) (h2 : r ∉ opsNorm_W) (h3 : r ∉ opsDot1_W) : U4 V (Proc.devRef .tc r) = V (Proc.devRef .tc r) :=
  (opsDot1_keep (U3 V) r h3).trans (U3_keep V r h0 h1 h2)

theorem U5_agg : U5 V (Proc.devRef .tc main_v43) = Gcn.agg128 (F := F) (prod1 V) (srcs V) (tgts V) (wts V) :=
  (r3_agg (U4 V)).trans (by rw [U4_prod, U4_row, U4_col, U4_norm])
theorem U5_row : U5 V (Proc.devRef .tc main_v3) = srcs V := (opsAgg1_keep (U4 V) main_v3 (by decide)).trans (U4_row V)
theorem U5_col : U5 V (Proc.devRef .tc main_v6) = tgts V := (opsAgg1_keep (U4 V) main_v6 (by decide)).trans (U4_col V)
theorem U5_norm : U5 V (Proc.devRef .tc main_v29) = wts V := (opsAgg1_keep (U4 V) main_v29 (by decide)).trans (U4_norm V)
theorem U5_keep (r : Ref sig .tc) (h0 : r ∉ opsEdges_W) (h1 : r ∉ opsDinv_W) (h2 : r ∉ opsNorm_W) (h3 : r ∉ opsDot1_W) (h4 : r ∉ opsAgg1_W) :
    U5 V (Proc.devRef .tc r) = V (Proc.devRef .tc r) := (opsAgg1_keep (U4 V) r h4).trans (U4_keep V r h0 h1 h2 h3)

theorem U6_sum : U6 V (Proc.devRef .tc main_v46) = Gcn.addRow128 (F := F) (Gcn.agg128 (F := F) (prod1 V) (srcs V) (tgts V) (wts V))
    (broadcastInDim S1x128 ![1] Cert.ReferenceIdeal.Facts₀.bcast_S128_S1x128_1 (V (Proc.devRef .tc main_arg3))) :=
  (r3_bias (U5 V)).trans (by rw [U5_agg, U5_keep V main_arg3 (by decide) (by decide) (by decide) (by decide) (by decide)])
theorem U6_row : U6 V (Proc.devRef .tc main_v3) = srcs V := (opsBias1_keep (U5 V) main_v3 (by decide)).trans (U5_row V)
theorem U6_col : U6 V (Proc.devRef .tc main_v6) = tgts V := (opsBias1_keep (U5 V) main_v6 (by decide)).trans (U5_col V)
theorem U6_norm : U6 V (Proc.devRef .tc main_v29) = wts V := (opsBias1_keep (U5 V) main_v29 (by decide)).trans (U5_norm V)
theorem U6_keep (r : Ref sig .tc) (h0 : r ∉ opsEdges_W) (h1 : r ∉ opsDinv_W) (h2 : r ∉ opsNorm_W) (h3 : r ∉ opsDot1_W) (h4 : r ∉ opsAgg1_W)
    (h5 : r ∉ opsBias1_W) : U6 V (Proc.devRef .tc r) = V (Proc.devRef .tc r) := (opsBias1_keep (U5 V) r h5).trans (U5_keep V r h0 h1 h2 h3 h4)

theorem U7_hid : U7 V (Proc.devRef .tc main_v47) = hid V := (r3_elu (U6 V)).trans (by rw [U6_sum]; rfl)
theorem U7_row : U7 V (Proc.devRef .tc main_v3) = srcs V := (opsElu_keep (U6 V) main_v3 (by decide)).trans (U6_row V)
theorem U7_col : U7 V (Proc.devRef .tc main_v6) = tgts V := (opsElu_keep (U6 V) main_v6 (by decide)).trans (U6_col V)
theorem U7_norm : U7 V (Proc.devRef .tc main_v29) = wts V := (opsElu_keep (U6 V) main_v29 (by decide)).trans (U6_norm V)
theorem U7_keep (r : Ref sig .tc) (h0 : r ∉ opsEdges_W) (h1 : r ∉ opsDinv_W) (h2 : r ∉ opsNorm_W) (h3 : r ∉ opsDot1_W) (h4 : r ∉ opsAgg1_W)
    (h5 : r ∉ opsBias1_W) (h6 : r ∉ opsElu_W) : U7 V (Proc.devRef .tc r) = V (Proc.devRef .tc r) := (opsElu_keep (U6 V) r h6).trans (U6_keep V r h0 h1 h2 h3 h4 h5)

theorem U8_prod : U8 V (Proc.devRef .tc main_v48) = Gcn.mm2 (F := F) (hid V) (V (Proc.devRef .tc main_arg4)) :=
  (rd2 (U7 V)).trans (by rw [U7_hid, U7_keep V main_arg4 (by decide) (by decide) (by decide) (by decide) (by decide) (by decide) (by decide)])
theorem U8_row : U8 V (Proc.devRef .tc main_v3) = srcs V := (opsDot2_keep (U7 V) main_v3 (by decide)).trans (U7_row V)
theorem U8_col : U8 V (Proc.devRef .tc main_v6) = tgts V := (opsDot2_keep (U7 V) main_v6 (by decide)).trans (U7_col V)
theorem U8_norm : U8 V (Proc.devRef .tc main_v29) = wts V := (opsDot2_keep (U7 V) main_v29 (by decide)).trans (U7_norm V)
theorem U8_keep (r : Ref sig .tc) (h0 : r ∉ opsEdges_W) (h1 : r ∉ opsDinv_W) (h2 : r ∉ opsNorm_W) (h3 : r ∉ opsDot1_W) (h4 : r ∉ opsAgg1_W)
    (h5 : r ∉ opsBias1_W) (h6 : r ∉ opsElu_W) (h7 : r ∉ opsDot2_W) : U8 V (Proc.devRef .tc r) = V (Proc.devRef .tc r) :=
  (opsDot2_keep (U7 V) r h7).trans (U7_keep V r h0 h1 h2 h3 h4 h5 h6)

/-- The result buffer after every stage is the network of the arguments. -/
theorem U9_net : U9 V (Proc.devRef .tc main_v64)
    = Gcn.net (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  (r4_out (U8 V)).trans (by
    rw [U8_prod, U8_row, U8_col, U8_norm,
      U8_keep V main_arg5 (by decide) (by decide) (by decide) (by decide) (by decide) (by decide) (by decide) (by decide)]
    rfl)

/-- A buffer no stage writes ends as it started. -/
theorem U9_keep (r : Ref sig .tc) (h0 : r ∉ opsEdges_W) (h1 : r ∉ opsDinv_W) (h2 : r ∉ opsNorm_W) (h3 : r ∉ opsDot1_W) (h4 : r ∉ opsAgg1_W)
    (h5 : r ∉ opsBias1_W) (h6 : r ∉ opsElu_W) (h7 : r ∉ opsDot2_W) (h8 : r ∉ opsAgg2_W) : U9 V (Proc.devRef .tc r) = V (Proc.devRef .tc r) :=
  (opsAgg2_keep (U8 V) r h8).trans (U8_keep V r h0 h1 h2 h3 h4 h5 h6 h7)

/-- The run, read: the result array ends at the network of the launch arguments, the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64)
        = Gcn.net (F := F) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      have keep : ∀ (r' : Ref sig .tc) (h0 : r' ∉ opsEdges_W) (h1 : r' ∉ opsDinv_W) (h2 : r' ∉ opsNorm_W) (h3 : r' ∉ opsDot1_W) (h4 : r' ∉ opsAgg1_W)
          (h5 : r' ∉ opsBias1_W) (h6 : r' ∉ opsElu_W) (h7 : r' ∉ opsDot2_W) (h8 : r' ∉ opsAgg2_W),
          after ops (launchContents m c) (Proc.devRef .tc r') = m ((c.tc : Thread nD τ).loc r') :=
        fun r' h0 h1 h2 h3 h4 h5 h6 h7 h8 => (congrFun (after_ops (launchContents m c)) _).trans (U9_keep (launchContents m c) r' h0 h1 h2 h3 h4 h5 h6 h7 h8)
      ⟨(h c main_v64).trans ((congrFun (after_ops (launchContents m c)) _).trans (U9_net (launchContents m c))),
       (h c main_arg0).trans (keep main_arg0 (by decide) (by decide) (by decide) (by decide) (by decide) (by decide) (by decide) (by decide) (by decide)),
       (h c main_arg1).trans (keep main_arg1 (by decide) (by decide) (by decide) (by decide) (by decide) (by decide) (by decide) (by decide) (by decide)),
       (h c main_arg2).trans (keep main_arg2 (by decide) (by decide) (by decide) (by decide) (by decide) (by decide) (by decide) (by decide) (by decide)),
       (h c main_arg3).trans (keep main_arg3 (by decide) (by decide) (by decide) (by decide) (by decide) (by decide) (by decide) (by decide) (by decide)),
       (h c main_arg4).trans (keep main_arg4 (by decide) (by decide) (by decide) (by decide) (by decide) (by decide) (by decide) (by decide) (by decide)),
       (h c main_arg5).trans (keep main_arg5 (by decide) (by decide) (by decide) (by decide) (by decide) (by decide) (by decide) (by decide) (by decide))⟩)
    (run_main m ρ)

end Cert.ReferenceIdeal.Value

end
-- ==== Proof.lean ====
/- The certificate of a two-layer graph convolution: a program of three kernel regions among host operations (two
   products on the matrix unit, ten row blocks each, and a bias with an exponential linear unit between them; the edge
   weights and the two weighted neighbourhood sums on the host) against the host program that computes the same network
   with whole products. On the extended reals the two are one function of the six arguments (Proof/Spec.lean): a row
   block of a product is the product of the row block, a product into a zero accumulator is the product, rounding the
   operands to a narrower format changes nothing, and the unit spelt e^v − 1 is the unit spelt 1 · (e^w − 1); everything
   else is the same operations on both sides. Proof/KValue.lean reads the three-region program's result through its
   boundaries, Proof/RValue.lean the host program's through its stages; the frames are the generated ones and the host
   program's run with its result dropped; the idealization rewrote nothing. The finiteness of the inputs is never used. -/
import proofs.«138321_j16853451670012_1_alg».proof.Defs
import proofs.«138321_j16853451670012_1_alg».proof.Proof.Gen.Kernel
import proofs.«138321_j16853451670012_1_alg».proof.Proof.Gen.Kernel.Skeleton
import proofs.«138321_j16853451670012_1_alg».proof.Proof.Gen.Kernel.Launch
import proofs.«138321_j16853451670012_1_alg».proof.Proof.Gen.Kernel.Points
import proofs.«138321_j16853451670012_1_alg».proof.Proof.Gen.Kernel.Frame
import proofs.«138321_j16853451670012_1_alg».proof.Proof.Gen.KernelIdeal
import proofs.«138321_j16853451670012_1_alg».proof.Proof.Gen.KernelIdeal.Skeleton
import proofs.«138321_j16853451670012_1_alg».proof.Proof.Gen.KernelIdeal.Launch
import proofs.«138321_j16853451670012_1_alg».proof.Proof.Gen.KernelIdeal.Points
import proofs.«138321_j16853451670012_1_alg».proof.Proof.Gen.KernelIdeal.Frame
import proofs.«138321_j16853451670012_1_alg».proof.Proof.Gen.ReferenceIdeal
import proofs.«138321_j16853451670012_1_alg».proof.Proof.Gen.Pre_finite_inputs
import proofs.«138321_j16853451670012_1_alg».proof.Proof.KValue
import proofs.«138321_j16853451670012_1_alg».proof.Proof.RValue
import Idealize.ShloMosaic.Adequacy
import Idealize.ShloMosaic.Init

noncomputable section

namespace Cert.Proof

open Idealize.ShloMosaic Idealize.SL.Sem

/-- The word-level program runs and leaves its arguments: the generated frame. -/
theorem frame_k : Cert.frame_Kernel := fun m ρ _ => Cert.Kernel.Gen.frame m ρ

/-- The idealized program likewise. -/
theorem frame_ki : Cert.frame_KernelIdeal := fun m ρ _ => Cert.KernelIdeal.Gen.frame m ρ

/-- The host program runs and leaves its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the arguments in their result buffers; the arguments agree. -/
theorem algebraic : Cert.algebraic_KernelIdeal_ReferenceIdeal := by
  intro m ρ m' ρ' _ hagree
  refine ⟨fun c => Cert.Gcn.net (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
